-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S1024x1024 : Shape := ⟨2, ![1024, 1024]⟩
abbrev S1024 : Shape := ⟨1, ![1024]⟩
abbrev S16x512 : Shape := ⟨2, ![16, 512]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16x512x1024 .f32) (main_arg1 : FVec F S1024x1024 .f32) (main_arg2 : FVec F S1024 .f32) (main_arg3 : FVec F S1024x1024 .f32) (main_arg4 : FVec F S1024 .f32) (main_arg5 : IVec S16x512 32) (main_arg6 : IVec S16x512 32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S16x512x1024 : Shape := ⟨3, ![16, 512, 1024]⟩
abbrev S1024x1024 : Shape := ⟨2, ![1024, 1024]⟩
abbrev S1024 : Shape := ⟨1, ![1024]⟩
abbrev S16x512 : Shape := ⟨2, ![16, 512]⟩
abbrev S_ : Shape := ⟨0, ![]⟩
abbrev S16x512x1 : Shape := ⟨3, ![16, 512, 1]⟩
abbrev S16x1x512 : Shape := ⟨3, ![16, 1, 512]⟩
abbrev S16x1x128 : Shape := ⟨3, ![16, 1, 128]⟩
abbrev S1x512x1024 : Shape := ⟨3, ![1, 512, 1024]⟩
abbrev S1x512x1 : Shape := ⟨3, ![1, 512, 1]⟩
abbrev S1x1x512 : Shape := ⟨3, ![1, 1, 512]⟩
abbrev S1x1x128 : Shape := ⟨3, ![1, 1, 128]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1x1024 : Shape := ⟨2, ![1, 1024]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 27
  | .vmem => 12
  | .smem => 0
  | _ => 0

abbrev bufTy : (tb : Table) → Fin (tcTables nBuf tb) → BufTy
  | .hbm, ⟨0, _⟩ => ⟨S16x512x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16x512, .i32⟩
  | .hbm, ⟨6, _⟩ => ⟨S16x512, .i32⟩
  | .hbm, ⟨7, _⟩ => ⟨S1024x1024, .f32⟩
  | .hbm, ⟨8, _⟩ => ⟨S1024x1024, .f32⟩
  | .hbm, ⟨9, _⟩ => ⟨S_, .i32⟩
  | .hbm, ⟨10, _⟩ => ⟨S16x512, .i32⟩
  | .hbm, ⟨11, _⟩ => ⟨S16x512, .i1⟩
  | .hbm, ⟨12, _⟩ => ⟨S_, .i32⟩
  | .hbm, ⟨13, _⟩ => ⟨S16x512, .i32⟩
  | .hbm, ⟨14, _⟩ => ⟨S16x512, .i1⟩
  | .hbm, ⟨15, _⟩ => ⟨S16x512, .i1⟩
  | .hbm, ⟨16, _⟩ => ⟨S16x512, .i32⟩
  | .hbm, ⟨17, _⟩ => ⟨S16x512x1, .i32⟩
  | .hbm, ⟨18, _⟩ => ⟨S_, .i32⟩
  | .hbm, ⟨19, _⟩ => ⟨S16x512, .i32⟩
  | .hbm, ⟨20, _⟩ => ⟨S16x512, .i1⟩
  | .hbm, ⟨21, _⟩ => ⟨S16x512, .i1⟩
  | .hbm, ⟨22, _⟩ => ⟨S16x512, .i32⟩
  | .hbm, ⟨23, _⟩ => ⟨S16x1x512, .i32⟩
  | .hbm, ⟨24, _⟩ => ⟨S16x1x128, .f32⟩
  | .hbm, ⟨25, _⟩ => ⟨S16x1x1, .f32⟩
  | .hbm, ⟨26, _⟩ => ⟨S16, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .f32⟩
  | .local _ .vmem, ⟨5, _⟩ => ⟨S1024, .f32⟩
  | .local _ .vmem, ⟨6, _⟩ => ⟨S1x512x1, .i32⟩
  | .local _ .vmem, ⟨7, _⟩ => ⟨S1x512x1, .i32⟩
  | .local _ .vmem, ⟨8, _⟩ => ⟨S1x1x512, .i32⟩
  | .local _ .vmem, ⟨9, _⟩ => ⟨S1x1x512, .i32⟩
  | .local _ .vmem, ⟨10, _⟩ => ⟨S1x1x128, .f32⟩
  | .local _ .vmem, ⟨11, _⟩ => ⟨S1x1x128, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  bcast_S_S16x512 : S_.BroadcastsInDim S16x512 (![] : Fin 0 → Fin S16x512.rank)
  natLt_1_32 : 1 < 32
  shapeCasts_S16x512_S16x512x1 : S16x512.ShapeCasts S16x512x1
  shapeCasts_S16x512_S16x1x512 : S16x512.ShapeCasts S16x1x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  shapeCasts_S1x512x1_S512x1 : S1x512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S1x1x512_S1x512 : S1x1x512.ShapeCasts S1x512
  broadcasts_S512x1_S512x512 : S512x1.Broadcasts S512x512
  broadcasts_S1x512_S512x512 : S1x512.Broadcasts S512x512
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S512x512_S512 : S512x512.Reduces [1] S512
  reduces_S512x1_S1 : S512x1.Reduces [0] S1
  shapeCasts_S1_S1x1 : S1.ShapeCasts S1x1
  broadcasts_S1x1_S512x512 : S1x1.Broadcasts S512x512
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  dot_S512x1024_S512x1024_S512x512_1_1_0_0_n_n_wf : DotDims.WF S512x1024 S512x1024 S512x512 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x1024.size a
  hwx0_0 : ∀ i : grid0.Coords, EltTy.bits .f32 = 32 ∨ (Rect.block (s := S16x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S16x512x1.size a
  hwx0_5 : ∀ i : grid0.Coords, EltTy.bits .i32 = 32 ∨ (Rect.block (s := S16x512x1) S1x512x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S16x1x512.size a
  hwx0_6 : ∀ i : grid0.Coords, EltTy.bits .i32 = 32 ∨ (Rect.block (s := S16x1x512) S1x1x512.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S16x1x128.size a
  hwx0_7 : ∀ i : grid0.Coords, EltTy.bits .f32 = 32 ∨ (Rect.block (s := S16x1x128) S1x1x128.size (cc0_transform_7 i) (hinb0_7 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x512x1024 : Shape := ⟨3, ![16, 512, 1024]⟩
abbrev S1024x1024 : Shape := ⟨2, ![1024, 1024]⟩
abbrev S1024 : Shape := ⟨1, ![1024]⟩
abbrev S16x512 : Shape := ⟨2, ![16, 512]⟩
abbrev S_ : Shape := ⟨0, ![]⟩
abbrev S16x512x1 : Shape := ⟨3, ![16, 512, 1]⟩
abbrev S16x1x512 : Shape := ⟨3, ![16, 1, 512]⟩
abbrev S16x512x512 : Shape := ⟨3, ![16, 512, 512]⟩
abbrev S1x1x1024 : Shape := ⟨3, ![1, 1, 1024]⟩
abbrev S16x262144 : Shape := ⟨2, ![16, 262144]⟩
abbrev S16 : Shape := ⟨1, ![16]⟩
abbrev S16x1 : Shape := ⟨2, ![16, 1]⟩

abbrev nBuf : Space → Nat
  | .hbm => 69
  | .vmem => 0
  | .smem => 0
  | _ => 0

abbrev bufTy : (tb : Table) → Fin (tcTables nBuf tb) → BufTy
  | .hbm, ⟨0, _⟩ => ⟨S16x512x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16x512, .i32⟩
  | .hbm, ⟨6, _⟩ => ⟨S16x512, .i32⟩
  | .hbm, ⟨7, _⟩ => ⟨S_, .i32⟩
  | .hbm, ⟨8, _⟩ => ⟨S16x512, .i32⟩
  | .hbm, ⟨9, _⟩ => ⟨S16x512, .i1⟩
  | .hbm, ⟨10, _⟩ => ⟨S_, .i32⟩
  | .hbm, ⟨11, _⟩ => ⟨S16x512, .i32⟩
  | .hbm, ⟨12, _⟩ => ⟨S16x512, .i1⟩
  | .hbm, ⟨13, _⟩ => ⟨S16x512, .i1⟩
  | .hbm, ⟨14, _⟩ => ⟨S_, .i32⟩
  | .hbm, ⟨15, _⟩ => ⟨S16x512, .i32⟩
  | .hbm, ⟨16, _⟩ => ⟨S16x512, .i1⟩
  | .hbm, ⟨17, _⟩ => ⟨S16x512, .i1⟩
  | .hbm, ⟨18, _⟩ => ⟨S16x512x1, .i1⟩
  | .hbm, ⟨19, _⟩ => ⟨S16x1x512, .i1⟩
  | .hbm, ⟨20, _⟩ => ⟨S16x512x512, .i1⟩
  | .hbm, ⟨21, _⟩ => ⟨S16x512x512, .i1⟩
  | .hbm, ⟨22, _⟩ => ⟨S16x512x512, .i1⟩
  | .hbm, ⟨23, _⟩ => ⟨S16x512x1024, .f32⟩
  | .hbm, ⟨24, _⟩ => ⟨S_, .f32⟩
  | .hbm, ⟨25, _⟩ => ⟨S16x512, .f32⟩
  | .hbm, ⟨26, _⟩ => ⟨S16x512x1, .f32⟩
  | .hbm, ⟨27, _⟩ => ⟨S16x512x1, .f32⟩
  | .hbm, ⟨28, _⟩ => ⟨S_, .f32⟩
  | .hbm, ⟨29, _⟩ => ⟨S16x512x1, .f32⟩
  | .hbm, ⟨30, _⟩ => ⟨S16x512x1, .f32⟩
  | .hbm, ⟨31, _⟩ => ⟨S16x512x1024, .f32⟩
  | .hbm, ⟨32, _⟩ => ⟨S16x512x1024, .f32⟩
  | .hbm, ⟨33, _⟩ => ⟨S16x512x512, .f32⟩
  | .hbm, ⟨34, _⟩ => ⟨S16x512x512, .f32⟩
  | .hbm, ⟨35, _⟩ => ⟨S16x512x1024, .f32⟩
  | .hbm, ⟨36, _⟩ => ⟨S1x1x1024, .f32⟩
  | .hbm, ⟨37, _⟩ => ⟨S16x512x1024, .f32⟩
  | .hbm, ⟨38, _⟩ => ⟨S16x512x1024, .f32⟩
  | .hbm, ⟨39, _⟩ => ⟨S16x512x1024, .f32⟩
  | .hbm, ⟨40, _⟩ => ⟨S1x1x1024, .f32⟩
  | .hbm, ⟨41, _⟩ => ⟨S16x512x1024, .f32⟩
  | .hbm, ⟨42, _⟩ => ⟨S16x512x1024, .f32⟩
  | .hbm, ⟨43, _⟩ => ⟨S16x512x512, .f32⟩
  | .hbm, ⟨44, _⟩ => ⟨S_, .f32⟩
  | .hbm, ⟨45, _⟩ => ⟨S_, .f32⟩
  | .hbm, ⟨46, _⟩ => ⟨S16x512x512, .f32⟩
  | .hbm, ⟨47, _⟩ => ⟨S16x512x512, .f32⟩
  | .hbm, ⟨48, _⟩ => ⟨S16x262144, .f32⟩
  | .hbm, ⟨49, _⟩ => ⟨S_, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16x1, .f32⟩
  | .hbm, ⟨55, _⟩ => ⟨S16x262144, .f32⟩
  | .hbm, ⟨56, _⟩ => ⟨S16x262144, .f32⟩
  | .hbm, ⟨57, _⟩ => ⟨S16x262144, .f32⟩
  | .hbm, ⟨58, _⟩ => ⟨S_, .f32⟩
  | .hbm, ⟨59, _⟩ => ⟨S16, .f32⟩
  | .hbm, ⟨60, _⟩ => ⟨S16x1, .f32⟩
  | .hbm, ⟨61, _⟩ => ⟨S16x262144, .f32⟩
  | .hbm, ⟨62, _⟩ => ⟨S16x262144, .f32⟩
  | .hbm, ⟨63, _⟩ => ⟨S16x512x512, .f32⟩
  | .hbm, ⟨64, _⟩ => ⟨S16x512x512, .f32⟩
  | .hbm, ⟨65, _⟩ => ⟨S16x512x512, .f32⟩
  | .hbm, ⟨66, _⟩ => ⟨S16x512x512, .f32⟩
  | .hbm, ⟨67, _⟩ => ⟨S_, .f32⟩
  | .hbm, ⟨68, _⟩ => ⟨S16, .f32⟩
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512_S16x1x512_0_2 : S16x512.BroadcastsInDim S16x1x512 (![0, 2] : Fin 2 → Fin S16x1x512.rank)
  bcast_S16x512x1_S16x512x512_0_1_2 : S16x512x1.BroadcastsInDim S16x512x512 (![0, 1, 2] : Fin 3 → Fin S16x512x512.rank)
  bcast_S16x1x512_S16x512x512_0_1_2 : S16x1x512.BroadcastsInDim S16x512x512 (![0, 1, 2] : Fin 3 → Fin S16x512x512.rank)
  reducesTo_S16x512x1024_S16x512_d2 : S16x512x1024.ReducesTo [2] S16x512
  h_S_ : 0 < S_.numel
  bcast_S_S16x512x1 : S_.BroadcastsInDim S16x512x1 (![] : Fin 0 → Fin S16x512x1.rank)
  bcast_S16x512x1_S16x512x1024_0_1_2 : S16x512x1.BroadcastsInDim S16x512x1024 (![0, 1, 2] : Fin 3 → Fin S16x512x1024.rank)
  bcast_S1024_S1x1x1024_2 : S1024.BroadcastsInDim S1x1x1024 (![2] : Fin 1 → Fin S1x1x1024.rank)
  bcast_S1x1x1024_S16x512x1024_0_1_2 : S1x1x1024.BroadcastsInDim S16x512x1024 (![0, 1, 2] : Fin 3 → Fin S16x512x1024.rank)
  bcast_S_S16x512x512 : S_.BroadcastsInDim S16x512x512 (![] : Fin 0 → Fin S16x512x512.rank)
  shapeCasts_S16x512x512_S16x262144 : S16x512x512.ShapeCasts S16x262144
  reducesTo_S16x262144_S16_d1 : S16x262144.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x262144_0_1 : S16x1.BroadcastsInDim S16x262144 (![0, 1] : Fin 2 → Fin S16x262144.rank)
  shapeCasts_S16x262144_S16x512x512 : S16x262144.ShapeCasts S16x512x512
  reducesTo_S16x512x512_S16_d1_2 : S16x512x512.ReducesTo [1, 2] S16
  dot_S16x512x1024_S16x512x1024_S16x512x512_2_2_1_1_0_0_wf : DotDims.WF S16x512x1024 S16x512x1024 S16x512x512 [2] [2] [1] [1] [0] [0]
  dot_S16x512x1024_S1024x1024_S16x512x1024_2_1_01_0_n_n_wf : DotDims.WF S16x512x1024 S1024x1024 S16x512x1024 [2] [1] [0, 1] [0] [] []

variable [Facts₀]

def dot_S16x512x1024_S16x512x1024_S16x512x512_2_2_1_1_0_0 : DotDims S16x512x1024 S16x512x1024 S16x512x512 where
  lhsContracting := [2]
  rhsContracting := [2]
  lhsNonContracting := [1]
  rhsNonContracting := [1]
  lhsBatch := [0]
  rhsBatch := [0]
  wf := dot_S16x512x1024_S16x512x1024_S16x512x512_2_2_1_1_0_0_wf
def dot_S16x512x1024_S1024x1024_S16x512x1024_2_1_01_0_n_n : DotDims S16x512x1024 S1024x1024 S16x512x1024 where
  lhsContracting := [2]
  rhsContracting := [1]
  lhsNonContracting := [0, 1]
  rhsNonContracting := [0]
  lhsBatch := []
  rhsBatch := []
  wf := dot_S16x512x1024_S1024x1024_S16x512x1024_2_1_01_0_n_n_wf

class Facts : Prop extends Facts₀ where

variable [Facts]
-- ==== Proof.PairScore.lean ====
/-
  The masked pair score of one sequence, as one function of its coordinates.

  A sequence has `n` tokens with features `X s c` (`c` over `d` features). Every token is scaled to unit length,
  the length floored at a small constant, and `cosAbs s t` is the absolute value of the inner product of the scaled
  tokens `s` and `t`. Two linear maps with biases (`lin`) give queries and keys, `logit s t` is their inner
  product. A bit `P s t` says which pairs count: the others get a large negative constant instead of their logit
  (`masked`). Over ALL pairs at once — the `n × n` table read as one list — `peak` is the greatest masked logit,
  `mass` the exponential of the distance below it, `massSum` the total mass; a pair's share of the mass, kept only
  when its bit is set, times `cosAbs`, summed over all pairs, is `value`.

  Sums and the greatest element are taken over the pairs `Fin n × Fin n`; `LibFlatPairs` turns them into the nested
  or the flattened order a program visits them in.
-/
import Idealize.ShloMosaic.PureOps.Ideal
import Idealize.ShloMosaic.PureOps.Ideal.Laws

noncomputable section

namespace Cert.PairScore

open Idealize.ShloMosaic

/-- The floor under a token's length (the word of the single-precision number nearest 1e-12). -/
def floorWord : EReal := Ideal.ofBits .f32 0x2B8CBCCC#32
/-- What a pair that does not count holds in place of its logit (the word of the single-precision number nearest -1e30). -/
def fillWord : EReal := Ideal.ofBits .f32 0xF149F2CA#32

variable {n d : ℕ} (X : Fin n → Fin d → EReal) (Wq : Fin d → Fin d → EReal) (bq : Fin d → EReal)
  (Wk : Fin d → Fin d → EReal) (bk : Fin d → EReal) (P : Fin n → Fin n → BitVec 1)

/-- A token's Euclidean length, floored. -/
def len (s : Fin n) : EReal := max (Ideal.sqrt (∑ c, X s c * X s c)) floorWord
/-- The token scaled by its floored length. -/
def dir (s : Fin n) (c : Fin d) : EReal := Ideal.div (X s c) (len X s)
/-- The absolute value `max a (-a)` of the inner product of two scaled tokens. -/
def cosAbs (s t : Fin n) : EReal := max (∑ c, dir X s c * dir X t c) (-(∑ c, dir X s c * dir X t c))
/-- A linear map of a token, the weight stored output-major (`W e c`), plus a bias. -/
def lin (W : Fin d → Fin d → EReal) (b : Fin d → EReal) (s : Fin n) (e : Fin d) : EReal := (∑ c, X s c * W e c) + b e
/-- Query of `s` against key of `t`. -/
def logit (s t : Fin n) : EReal := ∑ e, lin X Wq bq s e * lin X Wk bk t e
/-- The logit where the pair counts, the fill elsewhere. -/
def masked (s t : Fin n) : EReal := Scalar.select (P s t) (logit X Wq bq Wk bk s t) fillWord
/-- The greatest masked logit over all pairs. -/
def peak : EReal := (Finset.univ : Finset (Fin n × Fin n)).sup fun p => masked X Wq bq Wk bk P p.1 p.2
/-- A pair's unnormalised weight. -/
def mass (s t : Fin n) : EReal := Ideal.exp (masked X Wq bq Wk bk P s t - peak X Wq bq Wk bk P)
/-- The total weight of all pairs. -/
def massSum : EReal := ∑ p : Fin n × Fin n, mass X Wq bq Wk bk P p.1 p.2
/-- The pair's bit as a number, 0 or 1. -/
def flag (s t : Fin n) : EReal := (((P s t).toNat : ℝ) : EReal)
/-- One pair's contribution: its share of the mass, kept where the bit is set, times the cosine's absolute value. -/
def term (s t : Fin n) : EReal :=
  Ideal.div (mass X Wq bq Wk bk P s t) (massSum X Wq bq Wk bk P) * flag P s t * cosAbs X s t
/-- The sequence's score. -/
def value : EReal := ∑ p : Fin n × Fin n, term X Wq bq Wk bk P p.1 p.2

/-- The bit "this token is attended (mask word 1) and belongs to the first segment (type word 0)". -/
def inFirst (am tt : BitVec 32) : BitVec 1 := IntOp.andi (IntOp.cmpi .eq am 1#32) (IntOp.cmpi .eq tt 0#32)
/-- The bit "this token is attended (mask word 1) and belongs to the second segment (type word 1)". -/
def inSecond (am tt : BitVec 32) : BitVec 1 := IntOp.andi (IntOp.cmpi .eq am 1#32) (IntOp.cmpi .eq tt 1#32)

/-- A one-bit word widened to 32 bits and read as a signed integer is the bit read as a natural number. -/
theorem widened_bit (b : BitVec 1) : (((b.setWidth 32).toInt : ℝ) : EReal) = (((b.toNat : ℝ)) : EReal) := by
  have h : ∀ b : BitVec 1, (b.setWidth 32).toInt = (b.toNat : ℤ) := by decide
  rw [h b]; norm_cast

/-- Two one-bit words widened to 32 bits multiply to one exactly when both are set. -/
theorem product_is_and (a b : BitVec 1) :
    IntOp.cmpi .eq (IntOp.muli (a.setWidth 32) (b.setWidth 32)) 1#32 = IntOp.andi a b := by
  revert a b; decide

end Cert.PairScore

end
-- ==== Proof.KernelBlocks.lean ====
/-
  What the kernel's body finds in its windows.

  The grid has one point per sequence `b` of the batch of 16. At point `b` the body finds: the sequence's tokens
  (block `b` of the `[16, 512, 1024]` array); the two weight matrices TRANSPOSED (the program transposes each
  `[1024, 1024]` matrix before the launch, so entry `(c, e)` of what the body finds is entry `(e, c)` of the argument)
  and the two bias vectors, whole at every point; and the sequence's two segment bits, which the program computes before the
  launch from the two integer arguments and lays out as a column `[16, 512, 1]` and a row `[16, 1, 512]`, each bit
  widened to 32 bits.
-/
import proofs.«171518_j24309514895978_2_alg».proof.Proof.Gen.KernelIdeal.Frame
import proofs.«171518_j24309514895978_2_alg».proof.Proof.PairScore
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.PairScore

variable (m : (ℓ : Loc nD τ sig) → Buf (Elt Ideal) ℓ)

/-- The sequence a grid point works on. -/
def seqOf (t : Fin cfg0.N) : Fin 16 := ⟨t.val, Nat.lt_of_lt_of_eq t.isLt N_0⟩

/-- The printed index maps, decided over the grid: the per-sequence windows move with the point along the first axis,
    the others stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-! ## The arrays the program computes before the launch -/

/-- The first weight matrix, transposed. -/
theorem V_v0 (c : Dev nD) : (V m c main_v0 : S1024x1024.Idx → EReal)
    = transpose S1024x1024 [1, 0] (m ((c : Thread nD τ).loc main_arg1)) transposes_S1024x1024_S1024x1024_1_0 := by
  show StableHlo.after hostOps0 (fun b => m (c, b)) (Proc.devRef .tc main_v0) = _
  after_results

/-- The second weight matrix, transposed. -/
theorem V_v1 (c : Dev nD) : (V m c main_v1 : S1024x1024.Idx → EReal)
    = transpose S1024x1024 [1, 0] (m ((c : Thread nD τ).loc main_arg3)) transposes_S1024x1024_S1024x1024_1_0 := by
  show StableHlo.after hostOps0 (fun b => m (c, b)) (Proc.devRef .tc main_v1) = _
  after_results

/-- The first segment's bits, widened, as a column per sequence. -/
theorem V_v8 (c : Dev nD) : (V m c main_v8 : S16x512x1.Idx → BitVec 32)
    = shapeCast S16x512x1 (extui 32 (andi (cmpi .eq (m ((c : Thread nD τ).loc main_arg5)) (broadcastInDim S16x512 ![] bcast_S_S16x512 (constantI S_ 32 1#32)))
        (cmpi .eq (m ((c : Thread nD τ).loc main_arg6)) (broadcastInDim S16x512 ![] bcast_S_S16x512 (constantI S_ 32 0#32)))) natLt_1_32) shapeCasts_S16x512_S16x512x1 := by
  show StableHlo.after hostOps0 (fun b => m (c, b)) (Proc.devRef .tc main_v8) = _
  after_results
  rfl

/-- The second segment's bits, widened, as a row per sequence. -/
theorem V_v13 (c : Dev nD) : (V m c main_v13 : S16x1x512.Idx → BitVec 32)
    = shapeCast S16x1x512 (extui 32 (andi (cmpi .eq (m ((c : Thread nD τ).loc main_arg5)) (broadcastInDim S16x512 ![] bcast_S_S16x512 (constantI S_ 32 1#32)))
        (cmpi .eq (m ((c : Thread nD τ).loc main_arg6)) (broadcastInDim S16x512 ![] bcast_S_S16x512 (constantI S_ 32 1#32)))) natLt_1_32) shapeCasts_S16x512_S16x1x512 := by
  show StableHlo.after hostOps0 (fun b => m (c, b)) (Proc.devRef .tc main_v13) = _
  after_results
  rfl

/-- A constant word copied to every token of every sequence. -/
theorem copied_word (w : BitVec 32) (i : S16x512.Idx) :
    broadcastInDim S16x512 ![] bcast_S_S16x512 (constantI S_ 32 w) i = w :=
  broadcastInDim_apply _ bcast_S_S16x512 (constantI S_ 32 w) i (fun a => a.elim0) (fun a => a.elim0)

/-! ## The blocks at a grid point, by coordinates -/

/-- The token block: sequence `seqOf t` of the tokens. -/
theorem tokens_apply (c : Dev nD) (t : Fin cfg0.N) (s : Fin 512) (d : Fin 1024) :
    (iblk m c 0 t : Vec Ideal S1x512x1024 .f32) (ix3 (0 : Fin 1) s d)
      = (m ((c : Thread nD τ).loc main_arg0) : S16x512x1024.Idx → EReal) (ix3 (seqOf t) s d) := by
  obtain ⟨h0, h1, h2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * s.val = s.val; omega
  | ⟨2, _⟩ => show win0_0.index t (2 : Fin 3) * 1024 + 1 * d.val = d.val; omega

/-- The first weight block: the whole transposed matrix, so entry `(cc, e)` is the argument's `(e, cc)`. -/
theorem weightQ_apply (c : Dev nD) (t : Fin cfg0.N) (cc e : Fin 1024) :
    (iblk m c 1 t : Vec Ideal S1024x1024 .f32) (ix2 cc e)
      = (m ((c : Thread nD τ).loc main_arg1) : S1024x1024.Idx → EReal) (ix2 e cc) := by
  obtain ⟨-, -, -, h0, h1, -⟩ := idx_facts t
  unfold iblk
  rw [View.read_apply]
  show V m c main_v0 _ = _
  rw [V_v0]
  refine (congrArg _ (funext fun a => Fin.ext ?_)).trans (transpose_ix2_apply _ transposes_S1024x1024_S1024x1024_1_0 cc e)
  match a with
  | ⟨0, _⟩ => show win0_1.index t (0 : Fin 2) * 1024 + 1 * cc.val = cc.val; omega
  | ⟨1, _⟩ => show win0_1.index t (1 : Fin 2) * 1024 + 1 * e.val = e.val; omega

/-- The second weight block, likewise. -/
theorem weightK_apply (c : Dev nD) (t : Fin cfg0.N) (cc e : Fin 1024) :
    (iblk m c 3 t : Vec Ideal S1024x1024 .f32) (ix2 cc e)
      = (m ((c : Thread nD τ).loc main_arg3) : S1024x1024.Idx → EReal) (ix2 e cc) := by
  obtain ⟨-, -, -, -, -, -, h0, h1, -⟩ := idx_facts t
  unfold iblk
  rw [View.read_apply]
  show V m c main_v1 _ = _
  rw [V_v1]
  refine (congrArg _ (funext fun a => Fin.ext ?_)).trans (transpose_ix2_apply _ transposes_S1024x1024_S1024x1024_1_0 cc e)
  match a with
  | ⟨0, _⟩ => show win0_3.index t (0 : Fin 2) * 1024 + 1 * cc.val = cc.val; omega
  | ⟨1, _⟩ => show win0_3.index t (1 : Fin 2) * 1024 + 1 * e.val = e.val; omega

/-- The first bias block: the whole vector. -/
theorem biasQ_apply (c : Dev nD) (t : Fin cfg0.N) (e : Fin 1024) :
    (iblk m c 2 t : Vec Ideal S1024 .f32) (ix1 e) = (m ((c : Thread nD τ).loc main_arg2) : S1024.Idx → EReal) (ix1 e) := by
  obtain ⟨-, -, -, -, -, h0, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 1) * 1024 + 1 * e.val = e.val; omega

/-- The second bias block: the whole vector. -/
theorem biasK_apply (c : Dev nD) (t : Fin cfg0.N) (e : Fin 1024) :
    (iblk m c 4 t : Vec Ideal S1024 .f32) (ix1 e) = (m ((c : Thread nD τ).loc main_arg4) : S1024.Idx → EReal) (ix1 e) := by
  obtain ⟨-, -, -, -, -, -, -, -, h0, -⟩ := idx_facts t
  unfold iblk
  rw [View.read_apply]
  show V m c main_arg4 _ = _
  rw [V_main_arg4]
  refine congrArg _ (funext fun a => Fin.ext ?_)
  match a with
  | ⟨0, _⟩ => show win0_4.index t (0 : Fin 1) * 1024 + 1 * e.val = e.val; omega

/-- The column of first-segment bits of sequence `seqOf t`: entry `s` is token `s`'s bit, widened. -/
theorem firstBits_apply (c : Dev nD) (t : Fin cfg0.N) (s : Fin 512) :
    (iblk m c 5 t : Vec Ideal S1x512x1 .i32) (ix3 (0 : Fin 1) s (0 : Fin 1))
      = (inFirst ((m ((c : Thread nD τ).loc main_arg5) : S16x512.Idx → BitVec 32) (ix2 (seqOf t) s))
          ((m ((c : Thread nD τ).loc main_arg6) : S16x512.Idx → BitVec 32) (ix2 (seqOf t) s))).setWidth 32 := by
  obtain ⟨-, -, -, -, -, -, -, -, -, h0, h1, h2, -⟩ := idx_facts t
  unfold iblk
  rw [View.read_apply]
  show V m c main_v8 _ = _
  rw [V_v8]
  refine (shapeCast_apply _ shapeCasts_S16x512_S16x512x1 _ (ix2 (seqOf t) s) ?_).trans ?_
  · rw [Shape.rowMajor_val_two, Shape.rowMajor_val_three]
    show t.val * 512 + s.val = ((win0_5.index t (0 : Fin 3) * 1 + 1 * 0) * 512 + (win0_5.index t (1 : Fin 3) * 512 + 1 * s.val)) * 1 + (win0_5.index t (2 : Fin 3) * 1 + 1 * 0)
    omega
  · show (IntOp.andi (IntOp.cmpi .eq _ (broadcastInDim S16x512 ![] bcast_S_S16x512 (constantI S_ 32 1#32) _))
        (IntOp.cmpi .eq _ (broadcastInDim S16x512 ![] bcast_S_S16x512 (constantI S_ 32 0#32) _))).setWidth 32 = _
    rw [copied_word, copied_word]
    rfl

/-- The row of second-segment bits of sequence `seqOf t`: entry `s` is token `s`'s bit, widened. -/
theorem secondBits_apply (c : Dev nD) (t : Fin cfg0.N) (s : Fin 512) :
    (iblk m c 6 t : Vec Ideal S1x1x512 .i32) (ix3 (0 : Fin 1) (0 : Fin 1) s)
      = (inSecond ((m ((c : Thread nD τ).loc main_arg5) : S16x512.Idx → BitVec 32) (ix2 (seqOf t) s))
          ((m ((c : Thread nD τ).loc main_arg6) : S16x512.Idx → BitVec 32) (ix2 (seqOf t) s))).setWidth 32 := by
  obtain ⟨-, -, -, -, -, -, -, -, -, -, -, -, h0, h1, h2, -⟩ := idx_facts t
  unfold iblk
  rw [View.read_apply]
  show V m c main_v13 _ = _
  rw [V_v13]
  refine (shapeCast_apply _ shapeCasts_S16x512_S16x1x512 _ (ix2 (seqOf t) s) ?_).trans ?_
  · rw [Shape.rowMajor_val_two, Shape.rowMajor_val_three]
    show t.val * 512 + s.val = ((win0_6.index t (0 : Fin 3) * 1 + 1 * 0) * 1 + (win0_6.index t (1 : Fin 3) * 1 + 1 * 0)) * 512 + (win0_6.index t (2 : Fin 3) * 512 + 1 * s.val)
    omega
  · show (IntOp.andi (IntOp.cmpi .eq _ (broadcastInDim S16x512 ![] bcast_S_S16x512 (constantI S_ 32 1#32) _))
        (IntOp.cmpi .eq _ (broadcastInDim S16x512 ![] bcast_S_S16x512 (constantI S_ 32 1#32) _))).setWidth 32 = _
    rw [copied_word]
    rfl

end Cert.KernelIdeal.Blocks

end
-- ==== Proof.BatchScore.lean ====
/-
  The masked pair score of every sequence of a batch, from the batch's arrays.

  Tokens `x0 : [16, 512, 1024]`; the two weight matrices `x1, x3 : [1024, 1024]` stored output-major with their biases
  `x2, x4 : [1024]`; an attention-mask word and a segment word per token, `x5, x6 : [16, 512]`. A pair `(s, t)` of
  sequence `b` counts when `s` is an attended token of the first segment and `t` one of the second.
-/
import proofs.«171518_j24309514895978_2_alg».proof.Proof.PairScore
import Idealize.ShloMosaic.Lib.ValueIdx

noncomputable section

namespace Cert.PairScore

open Idealize.ShloMosaic Idealize.ShloMosaic.ValueIdx

/-- The score of sequence `b`. -/
def batchValue (x0 : (⟨3, ![16, 512, 1024]⟩ : Shape).Idx → EReal) (x1 : (⟨2, ![1024, 1024]⟩ : Shape).Idx → EReal)
    (x2 : (⟨1, ![1024]⟩ : Shape).Idx → EReal) (x3 : (⟨2, ![1024, 1024]⟩ : Shape).Idx → EReal)
    (x4 : (⟨1, ![1024]⟩ : Shape).Idx → EReal) (x5 x6 : (⟨2, ![16, 512]⟩ : Shape).Idx → BitVec 32) (b : Fin 16) : EReal :=
  value (n := 512) (d := 1024) (fun s c => x0 (ix3 b s c)) (fun e c => x1 (ix2 e c)) (fun e => x2 (ix1 e))
    (fun e c => x3 (ix2 e c)) (fun e => x4 (ix1 e))
    (fun s t => IntOp.andi (inFirst (x5 (ix2 b s)) (x6 (ix2 b s))) (inSecond (x5 (ix2 b t)) (x6 (ix2 b t))))

/-- The batch's scores as the result vector `[16]`. -/
def batchScores (x0 : (⟨3, ![16, 512, 1024]⟩ : Shape).Idx → EReal) (x1 : (⟨2, ![1024, 1024]⟩ : Shape).Idx → EReal)
    (x2 : (⟨1, ![1024]⟩ : Shape).Idx → EReal) (x3 : (⟨2, ![1024, 1024]⟩ : Shape).Idx → EReal)
    (x4 : (⟨1, ![1024]⟩ : Shape).Idx → EReal) (x5 x6 : (⟨2, ![16, 512]⟩ : Shape).Idx → BitVec 32) :
    (⟨1, ![16]⟩ : Shape).Idx → EReal :=
  fun i => batchValue x0 x1 x2 x3 x4 x5 x6 (i 0)

end Cert.PairScore

end
-- ==== Proof.LibFlatPairs.lean ====
/-
  Sums and greatest elements over the pairs of two finite ranges, in the orders programs take them.

  A table `f s t` with `s` over `n` rows and `t` over `m` columns can be summed over the pairs `(s, t)`, row by row
  (each row first, then the row totals), or as one list of `N = n · m` entries in row-major order, entry `k` being
  `f (k / m) (k % m)`. In a commutative monoid the three sums agree; in a lattice with a least element the three
  greatest elements agree. A fold of `max` from the least element is that greatest element.
-/
import Mathlib.Algebra.BigOperators.Fin
import Mathlib.Order.CompleteLattice.Finset
import Mathlib.Data.Fintype.BigOperators
import Mathlib.Data.EReal.Basic

namespace Cert.FlatPairs

variable {n m N : ℕ}

/-- The row of entry `k` of the flattened table. -/
def rowOf (h : N = n * m) (k : Fin N) : Fin n :=
  ⟨k.val / m, by
    have hk := k.isLt
    rcases Nat.eq_zero_or_pos m with hm | hm
    · subst hm; omega
    · exact (Nat.div_lt_iff_lt_mul hm).2 (h ▸ hk)⟩
/-- Its column. -/
def colOf (h : N = n * m) (k : Fin N) : Fin m :=
  ⟨k.val % m, by
    have hk := k.isLt
    rcases Nat.eq_zero_or_pos m with hm | hm
    · subst hm; omega
    · exact Nat.mod_lt _ hm⟩

/-- Entry `(s, t)` sits at position `s · m + t`. -/
def posOf (h : N = n * m) (p : Fin n × Fin m) : Fin N :=
  ⟨p.1.val * m + p.2.val, by
    have h1 := p.1.isLt; have h2 := p.2.isLt
    calc p.1.val * m + p.2.val < p.1.val * m + m := by omega
      _ = (p.1.val + 1) * m := by ring
      _ ≤ n * m := Nat.mul_le_mul_right m h1
      _ = N := h.symm⟩

/-- Row-major flattening as a bijection between positions and pairs. -/
def pairEquiv (h : N = n * m) : Fin N ≃ Fin n × Fin m where
  toFun k := (rowOf h k, colOf h k)
  invFun := posOf h
  left_inv k := Fin.ext (by
    show k.val / m * m + k.val % m = k.val
    rw [Nat.mul_comm]; exact Nat.div_add_mod k.val m)
  right_inv p := by
    have h2 := p.2.isLt
    have hm : 0 < m := by omega
    refine Prod.ext (Fin.ext ?_) (Fin.ext ?_)
    · show (p.1.val * m + p.2.val) / m = p.1.val
      rw [Nat.mul_comm, Nat.mul_add_div hm, Nat.div_eq_of_lt h2, Nat.add_zero]
    · show (p.1.val * m + p.2.val) % m = p.2.val
      rw [Nat.mul_comm, Nat.mul_add_mod, Nat.mod_eq_of_lt h2]

section sums
variable {M : Type} [AddCommMonoid M]

/-- The sum over the pairs is the sum of the row totals. -/
theorem sum_rows (f : Fin n → Fin m → M) : ∑ p : Fin n × Fin m, f p.1 p.2 = ∑ s, ∑ t, f s t :=
  Fintype.sum_prod_type' f

/-- The sum of the flattened table is the sum over the pairs. -/
theorem sum_flat (h : N = n * m) (f : Fin n → Fin m → M) :
    ∑ k : Fin N, f (rowOf h k) (colOf h k) = ∑ p : Fin n × Fin m, f p.1 p.2 :=
  Fintype.sum_equiv (pairEquiv h) _ _ fun _ => rfl
end sums

section sups
variable {L : Type} [SemilatticeSup L] [OrderBot L]

/-- The greatest element over the pairs is the greatest of the rows' greatest elements. -/
theorem sup_rows (f : Fin n → Fin m → L) :
    (Finset.univ : Finset (Fin n × Fin m)).sup (fun p => f p.1 p.2)
      = (Finset.univ : Finset (Fin n)).sup fun s => (Finset.univ : Finset (Fin m)).sup fun t => f s t := by
  apply le_antisymm
  · refine Finset.sup_le fun p _ => ?_
    exact le_trans (Finset.le_sup (f := fun t => f p.1 t) (Finset.mem_univ p.2))
      (Finset.le_sup (f := fun s => (Finset.univ : Finset (Fin m)).sup fun t => f s t) (Finset.mem_univ p.1))
  · refine Finset.sup_le fun s _ => Finset.sup_le fun t _ => ?_
    exact Finset.le_sup (f := fun p : Fin n × Fin m => f p.1 p.2) (Finset.mem_univ (s, t))

/-- The greatest element of the flattened table is the greatest over the pairs. -/
theorem sup_flat (h : N = n * m) (f : Fin n → Fin m → L) :
    (Finset.univ : Finset (Fin N)).sup (fun k => f (rowOf h k) (colOf h k))
      = (Finset.univ : Finset (Fin n × Fin m)).sup fun p => f p.1 p.2 := by
  apply le_antisymm
  · refine Finset.sup_le fun k _ => ?_
    exact Finset.le_sup (f := fun p : Fin n × Fin m => f p.1 p.2) (Finset.mem_univ (pairEquiv h k))
  · refine Finset.sup_le fun p _ => ?_
    have := Finset.le_sup (f := fun k => f (rowOf h k) (colOf h k)) (Finset.mem_univ ((pairEquiv h).symm p))
    have e : pairEquiv h ((pairEquiv h).symm p) = p := (pairEquiv h).apply_symm_apply p
    have e1 : rowOf h ((pairEquiv h).symm p) = p.1 := congrArg Prod.fst e
    have e2 : colOf h ((pairEquiv h).symm p) = p.2 := congrArg Prod.snd e
    simpa only [e1, e2] using this
end sups

/-- A fold of `max` from the least element over a finite set is the set's greatest element. -/
theorem fold_max_bot {ι : Type} [DecidableEq ι] (s : Finset ι) (f : ι → EReal) : s.fold max ⊥ f = s.sup f := by
  induction s using Finset.induction_on with
  | empty => simp
  | insert a s ha ih => rw [Finset.fold_insert ha, Finset.sup_insert, ih]

end Cert.FlatPairs
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnSum.lean ====
/-
  The sum of a column read at an index.

  Reducing a column `[a, 1]` along its first axis gives a vector `[1]` whose one entry is the sum of the column's
  `a` entries. The index is written by its coordinates.
-/
import Idealize.ShloMosaic.PureOps.Ideal.Laws
import Idealize.ShloMosaic.Lib.ValueIdx

namespace Cert.ColumnSum

open Idealize.ShloMosaic Idealize.ShloMosaic.ValueIdx

/-- The index of the column that reduces to `u` along the first axis and has `k` there is `(k, u)`. -/
theorem lift_col {a : ℕ} (h : (⟨2, ![a, 1]⟩ : Shape).Reduces [0] ⟨1, ![1]⟩) (u : Fin 1)
    (k : Fin ((⟨2, ![a, 1]⟩ : Shape).size 0)) : h.lift (ix1 u) k = ix2 (⟨k.val, k.isLt⟩ : Fin a) u := by
  funext d; apply Fin.ext
  match d with
  | ⟨0, _⟩ => rfl
  | ⟨1, _⟩ => rfl

/-- A float sum down a column, from the zero word: the sum of the column's entries. -/
theorem multiReduction_add_col {a : ℕ} (src : FVec Ideal ⟨2, ![a, 1]⟩ .f32)
    (h : (⟨2, ![a, 1]⟩ : Shape).Reduces [0] ⟨1, ![1]⟩) (u : Fin 1) :
    multiReduction .add [0] ⟨1, ![1]⟩ src 0x00000000#32 h (.inl rfl) rfl (ix1 u) = ∑ k : Fin a, src (ix2 k u) :=
  (Ideal.multiReduction_add_single src 0x00000000#32 h (.inl rfl) rfl (ix1 u)).trans
    (Finset.sum_congr rfl fun k _ => congrArg src (lift_col h u k))

end Cert.ColumnSum
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibWholeTable.lean ====
/-
  A whole table reduced to one number the way a vector program does it, and one number copied back over a table.

  A program takes the greatest entry (or the total) of an `a × b` table in two steps: each row is reduced to one
  number, the `a` row results are laid out as a column, and the column is reduced to a one-entry vector. The result
  is the greatest entry (the total) over all pairs `(s, t)`. The one-entry vector is then laid out as a `1 × 1`
  matrix and copied over an `a × b` table, or laid out as `1 × 1 × 1` and copied along `n` lanes; every entry of
  the copy is the one number. Every index is written by its coordinates.
-/
import Idealize.ShloMosaic.PureOps.Ideal.Laws
import Idealize.ShloMosaic.Lib.ValueIdx
import Idealize.ShloMosaic.Lib.ValueLayout
import proofs.«171518_j24309514895978_2_alg».proof.Proof.LibFlatPairs
import proofs.«171518_j24309514895978_2_alg».proof.Proof.LibRowForms
import proofs.«171518_j24309514895978_2_alg».proof.Proof.LibColumnSum
import proofs.«171518_j24309514895978_2_alg».proof.Proof.LibColumnForms

noncomputable section

namespace Cert.WholeTable

open Idealize.ShloMosaic Idealize.ShloMosaic.ValueIdx

/-- The word of minus infinity denotes the least extended real. -/
theorem ofBits_negInf : Ideal.ofBits .f32 0xFF800000#32 = (⊥ : EReal) := by simp [Ideal.ofBits, Ideal.ieee]

/-- A float maximum down a column, from the word of minus infinity: the fold of `max` over the column's entries. -/
theorem multiReduction_max_col {a : ℕ} (src : FVec Ideal ⟨2, ![a, 1]⟩ .f32)
    (h : (⟨2, ![a, 1]⟩ : Shape).Reduces [0] ⟨1, ![1]⟩) (u : Fin 1) :
    multiReduction .maximumf [0] ⟨1, ![1]⟩ src 0xFF800000#32 h (.inl rfl) rfl (ix1 u)
      = (Finset.univ : Finset (Fin a)).fold max (Ideal.ofBits .f32 0xFF800000#32) (fun k => src (ix2 k u)) :=
  (Ideal.multiReduction_maximumf_single src 0xFF800000#32 h (.inl rfl) rfl (ix1 u)).trans
    (congrArg (fun f => Finset.fold max (Ideal.ofBits .f32 0xFF800000#32) f (Finset.univ : Finset (Fin a)))
      (funext fun k => congrArg src (Cert.ColumnSum.lift_col h u k)))

/-- Rows first, then the column of row results: the greatest entry over all pairs. -/
theorem tableMax_apply {a b : ℕ} (m : FVec Ideal ⟨2, ![a, b]⟩ .f32)
    (h1 : (⟨2, ![a, b]⟩ : Shape).Reduces [1] ⟨1, ![a]⟩) (h2 : (⟨1, ![a]⟩ : Shape).ShapeCasts ⟨2, ![a, 1]⟩)
    (h3 : (⟨2, ![a, 1]⟩ : Shape).Reduces [0] ⟨1, ![1]⟩) (u : Fin 1) :
    multiReduction (F := Ideal) .maximumf [0] ⟨1, ![1]⟩
        (shapeCast ⟨2, ![a, 1]⟩ (multiReduction (F := Ideal) .maximumf [1] ⟨1, ![a]⟩ m 0xFF800000#32 h1 (.inl rfl) rfl) h2)
        0xFF800000#32 h3 (.inl rfl) rfl (ix1 u)
      = (Finset.univ : Finset (Fin a × Fin b)).sup fun p => m (ix2 p.1 p.2) := by
  rw [multiReduction_max_col, ofBits_negInf, Cert.FlatPairs.fold_max_bot, Cert.FlatPairs.sup_rows (fun s t => m (ix2 s t))]
  refine Finset.sup_congr rfl fun k _ => ?_
  rw [Cert.ColumnForms.shapeCast_a_a1_apply, Cert.RowForms.multiReduction_max_rows, ofBits_negInf,
    Cert.FlatPairs.fold_max_bot]

/-- Rows first, then the column of row results: the total over all pairs. -/
theorem tableSum_apply {a b : ℕ} (m : FVec Ideal ⟨2, ![a, b]⟩ .f32)
    (h1 : (⟨2, ![a, b]⟩ : Shape).Reduces [1] ⟨1, ![a]⟩) (h2 : (⟨1, ![a]⟩ : Shape).ShapeCasts ⟨2, ![a, 1]⟩)
    (h3 : (⟨2, ![a, 1]⟩ : Shape).Reduces [0] ⟨1, ![1]⟩) (u : Fin 1) :
    multiReduction (F := Ideal) .add [0] ⟨1, ![1]⟩
        (shapeCast ⟨2, ![a, 1]⟩ (multiReduction (F := Ideal) .add [1] ⟨1, ![a]⟩ m 0x00000000#32 h1 (.inl rfl) rfl) h2)
        0x00000000#32 h3 (.inl rfl) rfl (ix1 u)
      = ∑ p : Fin a × Fin b, m (ix2 p.1 p.2) := by
  rw [Cert.ColumnSum.multiReduction_add_col, Cert.FlatPairs.sum_rows (fun s t => m (ix2 s t))]
  refine Finset.sum_congr rfl fun k _ => ?_
  rw [Cert.ColumnForms.shapeCast_a_a1_apply, Cert.RowForms.multiReduction_add_rows]

variable {α : Type}

/-- A one-entry vector as a `1 × 1` matrix reads its entry. -/
theorem cell_apply (x : (⟨1, ![1]⟩ : Shape).Idx → α) (h : (⟨1, ![1]⟩ : Shape).ShapeCasts ⟨2, ![1, 1]⟩) (u v : Fin 1) :
    shapeCast ⟨2, ![1, 1]⟩ x h (ix2 u v) = x (ix1 (0 : Fin 1)) := by
  have hv : v = 0 := Subsingleton.elim _ _
  subst hv
  exact shapeCast_a_1a_apply x h u (0 : Fin 1)

/-- A one-entry vector as a `1 × 1` matrix copied over an `a × b` table reads its entry everywhere. -/
theorem splat_apply {a b : ℕ} (x : (⟨1, ![1]⟩ : Shape).Idx → α) (h : (⟨1, ![1]⟩ : Shape).ShapeCasts ⟨2, ![1, 1]⟩)
    (h' : (⟨2, ![1, 1]⟩ : Shape).Broadcasts ⟨2, ![a, b]⟩) (s : Fin a) (t : Fin b) :
    broadcastTo ⟨2, ![a, b]⟩ (shapeCast ⟨2, ![1, 1]⟩ x h) h' (ix2 s t) = x (ix1 (0 : Fin 1)) := by
  refine (broadcastTo_apply _ h' (ix2 s t) (ix2 (0 : Fin 1) (0 : Fin 1)) fun ax => ?_).trans (cell_apply x h 0 0)
  match ax with
  | ⟨0, _⟩ => rfl
  | ⟨1, _⟩ => rfl

/-- A one-entry vector as `1 × 1`, then `1 × 1 × 1` (twice), copied along `n` lanes reads its entry in every lane. -/
theorem lanes_apply {n : ℕ} (x : (⟨1, ![1]⟩ : Shape).Idx → α) (h1 : (⟨1, ![1]⟩ : Shape).ShapeCasts ⟨2, ![1, 1]⟩)
    (h2 : (⟨2, ![1, 1]⟩ : Shape).ShapeCasts ⟨3, ![1, 1, 1]⟩) (h3 : (⟨3, ![1, 1, 1]⟩ : Shape).ShapeCasts ⟨3, ![1, 1, 1]⟩)
    (h4 : (⟨3, ![1, 1, 1]⟩ : Shape).Broadcasts ⟨3, ![1, 1, n]⟩) (l : Fin n) :
    broadcastTo ⟨3, ![1, 1, n]⟩
        (shapeCast ⟨3, ![1, 1, 1]⟩ (shapeCast ⟨3, ![1, 1, 1]⟩ (shapeCast ⟨2, ![1, 1]⟩ x h1) h2) h3) h4
        (ix3 (0 : Fin 1) (0 : Fin 1) l)
      = x (ix1 (0 : Fin 1)) := by
  refine (broadcastTo_apply _ h4 (ix3 (0 : Fin 1) (0 : Fin 1) l) (ix3 (0 : Fin 1) (0 : Fin 1) (0 : Fin 1)) fun ax => ?_).trans ?_
  · match ax with
    | ⟨0, _⟩ => rfl
    | ⟨1, _⟩ => rfl
    | ⟨2, _⟩ => rfl
  · rw [shapeCast_self]
    refine (shapeCast_ab_1ab_apply _ h2 (0 : Fin 1) (0 : Fin 1) (0 : Fin 1)).trans (cell_apply x h1 0 0)

end Cert.WholeTable

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.BlockIsScoreInputs.lean ====
/-
  The tables the kernel body prepares from its loaded blocks, read at coordinates.

  From the `1 × 512 × 1024` block of token features, the two transposed weight blocks, the query bias and the two
  mask blocks the body prepares: the features as a `512 × 1024` table; the pair bit table; the table of absolute
  cosines between the tokens scaled to unit length; the queries (product with the first weight block plus its bias);
  and the keys' product with the second weight block, without the bias. Each is read here at its coordinates as the
  quantity of the masked pair score it stands for.
-/
import proofs.«171518_j24309514895978_2_alg».proof.Proof.Gen.KernelIdeal.Skeleton
import proofs.«171518_j24309514895978_2_alg».proof.Proof.PairScore
import proofs.«171518_j24309514895978_2_alg».proof.Proof.LibRowForms
import proofs.«171518_j24309514895978_2_alg».proof.Proof.LibColumnForms
import proofs.«171518_j24309514895978_2_alg».proof.Proof.LibRowsTimesRows
import proofs.«171518_j24309514895978_2_alg».proof.Proof.LibPlainMatmul
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.SL.Sem Idealize.ShloMosaic.ValueIdx Cert.PairScore

/-! ## The two kinds of matrix product of the body, read at an entry -/

/-- A product of two `512 × 1024` tables along their second axes, into the zero table: entry `(s, t)` is the inner
    product of row `s` of the first with row `t` of the second. -/
theorem gram_apply (A B : FVec Ideal S512x1024 .bf16) (s t : Fin 512) :
    matmul dot_S512x1024_S512x1024_S512x512_1_1_0_0_n_n none A B (constant (F := Ideal) S512x512 .f32 0x00000000#32) (ix2 s t)
      = ∑ c : Fin 1024, A (ix2 s c) * B (ix2 t c) :=
  Cert.RowsTimesRows.rowsMatmul_zero_apply Gen.dot_S512x1024_S512x1024_S512x512_1_1_0_0_n_n_wf none A B s t

/-- An ordinary product of a `512 × 1024` table by a `1024 × 1024` table, into the zero table. -/
theorem proj_apply (A : FVec Ideal S512x1024 .bf16) (B : FVec Ideal S1024x1024 .bf16) (s : Fin 512) (e : Fin 1024) :
    matmul dot_S512x1024_S1024x1024_S512x1024_1_0_0_1_n_n none A B (constant (F := Ideal) S512x1024 .f32 0x00000000#32) (ix2 s e)
      = ∑ c : Fin 1024, A (ix2 s c) * B (ix2 c e) :=
  Cert.PointConv.plainMatmul_zero_apply Gen.dot_S512x1024_S1024x1024_S512x1024_1_0_0_1_n_n_wf none A B s e

/-- A bias vector laid out as one row and copied down the 512 rows reads, at `(s, e)`, the bias at `e`. -/
theorem biasRow_apply (b : Vec Ideal S1024 .f32) (s : Fin 512) (e : Fin 1024) :
    broadcastTo S512x1024 (shapeCast S1x1024 b Gen.shapeCasts_S1024_S1x1024) Gen.broadcasts_S1x1024_S512x1024 (ix2 s e)
      = b (ix1 e) :=
  (broadcastTo_1b_ab_apply _ _ s e).trans (shapeCast_a_1a_apply b _ (0 : Fin 1) e)

/-! ## The feature table -/

/-- The block of features as a table: entry `(s, c)` is feature `c` of token `s`. -/
theorem pay2_apply (x0 : Vec Ideal S1x512x1024 .f32) (s : Fin 512) (c : Fin 1024) :
    k0_pay2 (F := Ideal) x0 (ix2 s c) = x0 (ix3 (0 : Fin 1) s c) :=
  shapeCast_1ab_ab_apply x0 _ s c

/-! ## The pair bit table -/

/-- Entry `(s, t)` of the bit table: is the product of the row mask at `s` and the column mask at `t` one? -/
theorem pay3_apply (x5 : Vec Ideal S1x512x1 .i32) (x6 : Vec Ideal S1x1x512 .i32) (s t : Fin 512) :
    k0_pay3 (F := Ideal) x5 x6 (ix2 s t)
      = IntOp.cmpi .eq (IntOp.muli (x5 (ix3 (0 : Fin 1) s (0 : Fin 1))) (x6 (ix3 (0 : Fin 1) (0 : Fin 1) t))) 1#32 := by
  have e1 : broadcastTo S512x512 (shapeCast S512x1 (shapeCast S1x512x1 x5 Gen.shapeCasts_S1x512x1_S1x512x1)
      Gen.shapeCasts_S1x512x1_S512x1) Gen.broadcasts_S512x1_S512x512 (ix2 s t) = x5 (ix3 (0 : Fin 1) s (0 : Fin 1)) := by
    rw [shapeCast_self]
    exact (Cert.ColumnForms.broadcastTo_a1_ab_apply _ _ s t).trans (shapeCast_1ab_ab_apply x5 _ s (0 : Fin 1))
  have e2 : broadcastTo S512x512 (shapeCast S1x512 (shapeCast S1x1x512 x6 Gen.shapeCasts_S1x1x512_S1x1x512)
      Gen.shapeCasts_S1x1x512_S1x512) Gen.broadcasts_S1x512_S512x512 (ix2 s t) = x6 (ix3 (0 : Fin 1) (0 : Fin 1) t) := by
    rw [shapeCast_self]
    exact (broadcastTo_1b_ab_apply _ _ s t).trans (shapeCast_1ab_ab_apply x6 _ (0 : Fin 1) t)
  exact congrArg₂ (fun a b => IntOp.cmpi .eq (IntOp.muli a b) 1#32) e1 e2

/-! ## The cosine table -/

/-- The column of floored token lengths of a feature table. -/
def lenCol (y : FVec Ideal S512x1024 .f32) : FVec Ideal S512x1 .f32 :=
  maximumf
    (sqrt (shapeCast S512x1 (multiReduction (F := Ideal) .add [1] S512 (mulf y y) 0x00000000#32 Gen.reduces_S512x1024_S512 (.inl rfl) rfl)
      Gen.shapeCasts_S512_S512x1))
    (broadcast S512x1 (Scalar.ofBits (F := Ideal) .f32 0x2B8CBCCC#32))

/-- The feature table with every token scaled by its floored length. -/
def dirTab (y : FVec Ideal S512x1024 .f32) : FVec Ideal S512x1024 .f32 :=
  divf y (broadcastTo S512x1024 (lenCol y) Gen.broadcasts_S512x1_S512x1024)

/-- The table of absolute inner products of the scaled tokens. -/
def cosTab (y : FVec Ideal S512x1024 .f32) : FVec Ideal S512x512 .f32 :=
  absf (matmul dot_S512x1024_S512x1024_S512x512_1_1_0_0_n_n none (truncf .bf16 (dirTab y) Gen.bitsLt_bf16_f32)
    (truncf .bf16 (dirTab y) Gen.bitsLt_bf16_f32) (constant (F := Ideal) S512x512 .f32 0x00000000#32))

/-- The body's cosine table is `cosTab` of its feature table. -/
theorem pay4_eq (x0 : Vec Ideal S1x512x1024 .f32) : k0_pay4 (F := Ideal) x0 = cosTab (k0_pay2 (F := Ideal) x0) := rfl

variable (y : FVec Ideal S512x1024 .f32) (Y : Fin 512 → Fin 1024 → EReal) (hy : ∀ s c, y (ix2 s c) = Y s c)
include hy

/-- The length column at `(s, 0)` is the floored length of token `s`. -/
theorem lenCol_apply (s : Fin 512) (u : Fin 1) : lenCol y (ix2 s u) = len Y s := by
  show max (Ideal.sqrt (shapeCast S512x1 (multiReduction (F := Ideal) .add [1] S512 (mulf y y) 0x00000000#32
    Gen.reduces_S512x1024_S512 (.inl rfl) rfl) Gen.shapeCasts_S512_S512x1 (ix2 s u))) floorWord = _
  rw [Cert.ColumnForms.shapeCast_a_a1_apply, Cert.RowForms.multiReduction_add_rows]
  unfold len
  refine congrArg (fun z => max (Ideal.sqrt z) floorWord) (Finset.sum_congr rfl fun c _ => ?_)
  show y (ix2 s c) * y (ix2 s c) = _
  rw [hy]

/-- The scaled table at `(s, c)` is feature `c` of the scaled token `s`. -/
theorem dirTab_apply (s : Fin 512) (c : Fin 1024) : dirTab y (ix2 s c) = dir Y s c := by
  show Ideal.div (y (ix2 s c)) (broadcastTo S512x1024 (lenCol y) Gen.broadcasts_S512x1_S512x1024 (ix2 s c)) = _
  rw [Cert.ColumnForms.broadcastTo_a1_ab_apply, lenCol_apply y Y hy, hy]
  rfl

/-- The cosine table at `(s, t)`. -/
theorem cosTab_apply (s t : Fin 512) : cosTab y (ix2 s t) = cosAbs Y s t := by
  have e : matmul dot_S512x1024_S512x1024_S512x512_1_1_0_0_n_n none (truncf .bf16 (dirTab y) Gen.bitsLt_bf16_f32)
      (truncf .bf16 (dirTab y) Gen.bitsLt_bf16_f32) (constant (F := Ideal) S512x512 .f32 0x00000000#32) (ix2 s t)
      = ∑ c, dir Y s c * dir Y t c :=
    (gram_apply _ _ s t).trans (Finset.sum_congr rfl fun c _ =>
      congrArg₂ (· * ·) (dirTab_apply y Y hy s c) (dirTab_apply y Y hy t c))
  show max (matmul dot_S512x1024_S512x1024_S512x512_1_1_0_0_n_n none (truncf .bf16 (dirTab y) Gen.bitsLt_bf16_f32)
      (truncf .bf16 (dirTab y) Gen.bitsLt_bf16_f32) (constant (F := Ideal) S512x512 .f32 0x00000000#32) (ix2 s t))
    (-(matmul dot_S512x1024_S512x1024_S512x512_1_1_0_0_n_n none (truncf .bf16 (dirTab y) Gen.bitsLt_bf16_f32)
      (truncf .bf16 (dirTab y) Gen.bitsLt_bf16_f32) (constant (F := Ideal) S512x512 .f32 0x00000000#32) (ix2 s t))) = _
  rw [e]
  rfl

omit hy

/-- The body's cosine table at `(s, t)` is the absolute cosine of tokens `s` and `t` of the block. -/
theorem pay4_apply (x0 : Vec Ideal S1x512x1024 .f32) (s t : Fin 512) :
    k0_pay4 (F := Ideal) x0 (ix2 s t) = cosAbs (fun s c => x0 (ix3 (0 : Fin 1) s c)) s t := by
  rw [pay4_eq]
  exact cosTab_apply _ _ (fun s c => pay2_apply x0 s c) s t

/-! ## Queries, and keys before their bias -/

/-- The feature table times a transposed weight block: entry `(s, e)` is `∑ c, X s c · W(c, e)`. -/
theorem pay7_apply (x0 : Vec Ideal S1x512x1024 .f32) (x3 : Vec Ideal S1024x1024 .f32) (s : Fin 512) (e : Fin 1024) :
    k0_pay7 (F := Ideal) x0 x3 (ix2 s e) = ∑ c : Fin 1024, x0 (ix3 (0 : Fin 1) s c) * x3 (ix2 c e) := by
  refine (proj_apply _ _ s e).trans (Finset.sum_congr rfl fun c _ => ?_)
  refine congrArg₂ (· * ·) (pay2_apply x0 s c) ?_
  show shapeCast S1024x1024 x3 Gen.shapeCasts_S1024x1024_S1024x1024 (ix2 c e) = _
  rw [shapeCast_self]

/-- The queries: the linear map of the first weight block and its bias, at `(s, e)`. -/
theorem pay6_apply (x0 : Vec Ideal S1x512x1024 .f32) (x1 : Vec Ideal S1024x1024 .f32) (x2 : Vec Ideal S1024 .f32)
    (s : Fin 512) (e : Fin 1024) :
    k0_pay6 (F := Ideal) x0 x1 x2 (ix2 s e)
      = lin (fun s c => x0 (ix3 (0 : Fin 1) s c)) (fun e c => x1 (ix2 c e)) (fun e => x2 (ix1 e)) s e := by
  have e1 := pay7_apply x0 x1 s e
  have e2 := biasRow_apply x2 s e
  exact congrArg₂ (· + ·) e1 e2

end Cert.KernelIdeal.BlockValue

end
-- ==== Proof.BlockIsScore.lean ====
/-
  The kernel body's stored value is the masked pair score of the block it loaded.

  After its tables are prepared the body adds the key bias, takes the table of logits (queries against keys), replaces
  the logits of the pairs that do not count by the fill, takes the greatest entry of the whole table (rows first, then
  the column of row results), the exponentials of the distances below it, their total, each pair's share of the total
  times its bit read as a number times its absolute cosine, and the total of those. The one number is copied along
  the 128 lanes of the stored row. Each stage is read at its coordinates as the quantity of the masked pair score it
  stands for; the row-then-column reductions are the reductions over all pairs.
-/
import proofs.«171518_j24309514895978_2_alg».proof.Proof.Gen.KernelIdeal.Skeleton
import proofs.«171518_j24309514895978_2_alg».proof.Proof.PairScore
import proofs.«171518_j24309514895978_2_alg».proof.Proof.LibFlatPairs
import proofs.«171518_j24309514895978_2_alg».proof.Proof.LibWholeTable
import proofs.«171518_j24309514895978_2_alg».proof.Proof.BlockIsScoreInputs
import Idealize.ShloMosaic.Lib.ValueIdx
import Idealize.ShloMosaic.PureOps.Ideal.Laws
noncomputable section
namespace Cert.KernelIdeal.BlockValue
open Cert.KernelIdeal Cert.KernelIdeal.Gen Idealize.ShloMosaic Idealize.SL.Sem Idealize.ShloMosaic.ValueIdx Cert.PairScore

/-! ## The stages of the stored value, as functions of the tables before them -/

/-- The logit table: queries against keys, the key bias added first. -/
def logitTab (v32 : Vec Ideal S1024 .f32) (v36 v37 : FVec Ideal S512x1024 .f32) : FVec Ideal S512x512 .f32 :=
  matmul dot_S512x1024_S512x1024_S512x512_1_1_0_0_n_n none (truncf .bf16 v36 Gen.bitsLt_bf16_f32)
    (truncf .bf16 (addf v37 (broadcastTo S512x1024 (shapeCast S1x1024 v32 Gen.shapeCasts_S1024_S1x1024)
      Gen.broadcasts_S1x1024_S512x1024)) Gen.bitsLt_bf16_f32)
    (constant (F := Ideal) S512x512 .f32 0x00000000#32)

/-- The logits where the pair counts, the fill elsewhere. -/
def maskedTab (v12 : IVec S512x512 1) (lg : FVec Ideal S512x512 .f32) : FVec Ideal S512x512 .f32 :=
  select v12 lg (broadcast S512x512 (Scalar.ofBits (F := Ideal) .f32 0xF149F2CA#32))

/-- The greatest entry of a table, copied over the table. -/
def peakTab (m : FVec Ideal S512x512 .f32) : FVec Ideal S512x512 .f32 :=
  broadcastTo S512x512
    (shapeCast S1x1
      (multiReduction (F := Ideal) .maximumf [0] S1
        (shapeCast S512x1 (multiReduction (F := Ideal) .maximumf [1] S512 m 0xFF800000#32 Gen.reduces_S512x512_S512 (.inl rfl) rfl)
          Gen.shapeCasts_S512_S512x1)
        0xFF800000#32 Gen.reduces_S512x1_S1 (.inl rfl) rfl)
      Gen.shapeCasts_S1_S1x1)
    Gen.broadcasts_S1x1_S512x512

/-- The exponentials of the distances below the greatest entry. -/
def massTab (m : FVec Ideal S512x512 .f32) : FVec Ideal S512x512 .f32 := exp (subf m (peakTab m))

/-- The one-entry vector holding the total of a table. -/
def totalVec (w : FVec Ideal S512x512 .f32) : FVec Ideal S1 .f32 :=
  multiReduction (F := Ideal) .add [0] S1
    (shapeCast S512x1 (multiReduction (F := Ideal) .add [1] S512 w 0x00000000#32 Gen.reduces_S512x512_S512 (.inl rfl) rfl)
      Gen.shapeCasts_S512_S512x1)
    0x00000000#32 Gen.reduces_S512x1_S1 (.inl rfl) rfl

/-- The total of a table, copied over the table. -/
def totalTab (w : FVec Ideal S512x512 .f32) : FVec Ideal S512x512 .f32 :=
  broadcastTo S512x512 (shapeCast S1x1 (totalVec w) Gen.shapeCasts_S1_S1x1) Gen.broadcasts_S1x1_S512x512

/-- Each pair's share of the total, times its bit read as a number, times the cosine table. -/
def termTab (v12 : IVec S512x512 1) (v23 w : FVec Ideal S512x512 .f32) : FVec Ideal S512x512 .f32 :=
  mulf (mulf (divf w (totalTab w)) (sitofp .f32 (extui 32 v12 Gen.natLt_1_32))) v23

/-- The total of a table, copied along the 128 lanes of the stored row. -/
def outLanes (w : FVec Ideal S512x512 .f32) : FVec Ideal S1x1x128 .f32 :=
  broadcastTo S1x1x128
    (shapeCast S1x1x1 (shapeCast S1x1x1 (shapeCast S1x1 (totalVec w) Gen.shapeCasts_S1_S1x1) Gen.shapeCasts_S1x1_S1x1x1)
      Gen.shapeCasts_S1x1x1_S1x1x1)
    Gen.broadcasts_S1x1x1_S1x1x128

/-- The stored value is the composition of the stages. -/
theorem pay1_eq (v12 : IVec S512x512 1) (v23 : FVec Ideal S512x512 .f32) (v32 : Vec Ideal S1024 .f32)
    (v36 v37 : FVec Ideal S512x1024 .f32) :
    k0_pay1 (F := Ideal) v12 v23 v32 v36 v37
      = outLanes (termTab v12 v23 (massTab (maskedTab v12 (logitTab v32 v36 v37)))) := rfl

/-! ## Each stage at its coordinates -/

/-- The logit table at `(s, t)`, for queries `Q` and biased keys `K`. -/
theorem logitTab_apply (v32 : Vec Ideal S1024 .f32) (v36 v37 : FVec Ideal S512x1024 .f32)
    (Q K : Fin 512 → Fin 1024 → EReal) (hQ : ∀ s e, v36 (ix2 s e) = Q s e)
    (hK : ∀ t e, v37 (ix2 t e) + v32 (ix1 e) = K t e) (s t : Fin 512) :
    logitTab v32 v36 v37 (ix2 s t) = ∑ e, Q s e * K t e := by
  refine (gram_apply _ _ s t).trans (Finset.sum_congr rfl fun e _ => ?_)
  exact congrArg₂ (· * ·) (hQ s e) ((congrArg (v37 (ix2 t e) + ·) (biasRow_apply v32 t e)).trans (hK t e))

/-- The greatest entry, at every entry of its copy. -/
theorem peakTab_apply (m : FVec Ideal S512x512 .f32) (s t : Fin 512) :
    peakTab m (ix2 s t) = (Finset.univ : Finset (Fin 512 × Fin 512)).sup fun p => m (ix2 p.1 p.2) :=
  (Cert.WholeTable.splat_apply _ _ _ s t).trans (Cert.WholeTable.tableMax_apply m _ _ _ (0 : Fin 1))

/-- The total, in the one-entry vector. -/
theorem totalVec_apply (w : FVec Ideal S512x512 .f32) :
    totalVec w (ix1 (0 : Fin 1)) = ∑ p : Fin 512 × Fin 512, w (ix2 p.1 p.2) :=
  Cert.WholeTable.tableSum_apply w _ _ _ (0 : Fin 1)

/-- The total, at every entry of its copy. -/
theorem totalTab_apply (w : FVec Ideal S512x512 .f32) (s t : Fin 512) :
    totalTab w (ix2 s t) = ∑ p : Fin 512 × Fin 512, w (ix2 p.1 p.2) :=
  (Cert.WholeTable.splat_apply _ _ _ s t).trans (totalVec_apply w)

/-- The total, in every lane of the stored row. -/
theorem outLanes_apply (w : FVec Ideal S512x512 .f32) (l : Fin 128) :
    outLanes w (ix3 (0 : Fin 1) (0 : Fin 1) l) = ∑ p : Fin 512 × Fin 512, w (ix2 p.1 p.2) :=
  (Cert.WholeTable.lanes_apply _ _ _ _ _ l).trans (totalVec_apply w)

/-! ## From the masked logits to the score -/

section score
variable (X : Fin 512 → Fin 1024 → EReal) (Wq : Fin 1024 → Fin 1024 → EReal) (bq : Fin 1024 → EReal)
  (Wk : Fin 1024 → Fin 1024 → EReal) (bk : Fin 1024 → EReal) (P : Fin 512 → Fin 512 → BitVec 1)
  (m : FVec Ideal S512x512 .f32) (hm : ∀ s t, m (ix2 s t) = masked X Wq bq Wk bk P s t)
include hm

/-- The copied greatest entry is the greatest masked logit. -/
theorem peakTab_eq (s t : Fin 512) : peakTab m (ix2 s t) = peak X Wq bq Wk bk P :=
  (peakTab_apply m s t).trans (Finset.sup_congr rfl fun p _ => hm p.1 p.2)

/-- The exponential table holds each pair's mass. -/
theorem massTab_eq (s t : Fin 512) : massTab m (ix2 s t) = mass X Wq bq Wk bk P s t := by
  show Ideal.exp (m (ix2 s t) - peakTab m (ix2 s t)) = _
  rw [hm, peakTab_eq X Wq bq Wk bk P m hm]
  rfl

/-- The copied total of the exponential table is the total mass. -/
theorem totalTab_eq (s t : Fin 512) : totalTab (massTab m) (ix2 s t) = massSum X Wq bq Wk bk P :=
  (totalTab_apply (massTab m) s t).trans (Finset.sum_congr rfl fun p _ => massTab_eq X Wq bq Wk bk P m hm p.1 p.2)

/-- The last table holds each pair's contribution. -/
theorem termTab_eq (v12 : IVec S512x512 1) (v23 : FVec Ideal S512x512 .f32) (h12 : ∀ s t, v12 (ix2 s t) = P s t)
    (h23 : ∀ s t, v23 (ix2 s t) = cosAbs X s t) (s t : Fin 512) :
    termTab v12 v23 (massTab m) (ix2 s t) = term X Wq bq Wk bk P s t := by
  show Ideal.div (massTab m (ix2 s t)) (totalTab (massTab m) (ix2 s t))
      * ((((v12 (ix2 s t)).setWidth 32).toInt : ℝ) : EReal) * v23 (ix2 s t) = _
  rw [massTab_eq X Wq bq Wk bk P m hm, totalTab_eq X Wq bq Wk bk P m hm, h12, h23, widened_bit]
  rfl

end score

/-- The stored value, for tables that are the score's quantities at their coordinates. -/
theorem stored_value (v12 : IVec S512x512 1) (v23 : FVec Ideal S512x512 .f32) (v32 : Vec Ideal S1024 .f32)
    (v36 v37 : FVec Ideal S512x1024 .f32)
    (X : Fin 512 → Fin 1024 → EReal) (Wq : Fin 1024 → Fin 1024 → EReal) (bq : Fin 1024 → EReal)
    (Wk : Fin 1024 → Fin 1024 → EReal) (bk : Fin 1024 → EReal) (P : Fin 512 → Fin 512 → BitVec 1)
    (h12 : ∀ s t, v12 (ix2 s t) = P s t) (h23 : ∀ s t, v23 (ix2 s t) = cosAbs X s t)
    (h36 : ∀ s e, v36 (ix2 s e) = lin X Wq bq s e) (h37 : ∀ t e, v37 (ix2 t e) + v32 (ix1 e) = lin X Wk bk t e)
    (l : Fin 128) :
    k0_pay1 (F := Ideal) v12 v23 v32 v36 v37 (ix3 (0 : Fin 1) (0 : Fin 1) l) = value X Wq bq Wk bk P := by
  have hm : ∀ s t, maskedTab v12 (logitTab v32 v36 v37) (ix2 s t) = masked X Wq bq Wk bk P s t := fun s t => by
    show Scalar.select (v12 (ix2 s t)) (logitTab v32 v36 v37 (ix2 s t)) fillWord = _
    rw [h12, logitTab_apply v32 v36 v37 _ _ h36 h37]
    rfl
  rw [pay1_eq]
  refine (outLanes_apply _ l).trans (Finset.sum_congr rfl fun p _ => ?_)
  exact termTab_eq X Wq bq Wk bk P _ hm v12 v23 h12 h23 p.1 p.2

variable [Cert.KernelIdeal.Facts]
theorem block_value (x0 : Vec Ideal S1x512x1024 .f32) (x1 : Vec Ideal S1024x1024 .f32) (x2 : Vec Ideal S1024 .f32)
    (x3 : Vec Ideal S1024x1024 .f32) (x4 : Vec Ideal S1024 .f32) (x5 : Vec Ideal S1x512x1 .i32) (x6 : Vec Ideal S1x1x512 .i32) (l : Fin 128) :
    k0_pay1 (F := Ideal) (k0_pay3 x5 x6) (k0_pay4 x0) x4 (k0_pay6 x0 x1 x2) (k0_pay7 x0 x3) (ix3 (0 : Fin 1) (0 : Fin 1) l)
      = value (n := 512) (d := 1024) (fun s c => x0 (ix3 (0 : Fin 1) s c)) (fun e c => x1 (ix2 c e)) (fun e => x2 (ix1 e))
          (fun e c => x3 (ix2 c e)) (fun e => x4 (ix1 e))
          (fun s t => IntOp.cmpi .eq (IntOp.muli (x5 (ix3 (0 : Fin 1) s (0 : Fin 1))) (x6 (ix3 (0 : Fin 1) (0 : Fin 1) t))) 1#32) :=
  stored_value _ _ _ _ _ _ _ _ _ _ _ (fun s t => pay3_apply x5 x6 s t) (fun s t => pay4_apply x0 s t)
    (fun s e => pay6_apply x0 x1 x2 s e)
    (fun t e => congrArg (· + x4 (ix1 e)) (pay7_apply x0 x3 t e)) l
end Cert.KernelIdeal.BlockValue
end
-- ==== Proof.KernelValue.lean ====
/-
  The kernel's result vector.

  Grid point `t` writes the score of sequence `t` into every lane of block `t` of a `[16, 1, 128]` array; the blocks
  cover that array, and after the launch the program keeps lane 0 of every block: the result vector `[16]` holds
  the sixteen scores.
-/
import proofs.«171518_j24309514895978_2_alg».proof.Proof.KernelBlocks
import proofs.«171518_j24309514895978_2_alg».proof.Proof.BatchScore
import proofs.«171518_j24309514895978_2_alg».proof.Proof.BlockIsScore

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrValue

open Cert.KernelIdeal Cert.KernelIdeal.Gen Cert.PairScore Cert.KernelIdeal.Blocks

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The score of sequence `b` from the arrays the program was launched with. -/
abbrev scoreOf (c : Dev nD) (b : Fin 16) : EReal :=
  batchValue (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b

/-- What the padded array ends holding: at `(b, 0, l)` the score of sequence `b`, whatever the lane `l`. -/
def padded (c : Dev nD) : S16x1x128.Idx → EReal := fun i => scoreOf m c ⟨(i 0).val, (i 0).isLt⟩

/-- `padded` at an index whose first coordinate is `b`. -/
theorem padded_apply (c : Dev nD) (i : S16x1x128.Idx) (b : Fin 16) (h : (i 0).val = b.val) : padded m c i = scoreOf m c b := by
  have e : (⟨(i 0).val, (i 0).isLt⟩ : Fin 16) = b := Fin.ext h
  unfold padded
  rw [e]

/-- `value` depends on its six arguments only. -/
theorem value_congr {n d : ℕ} {X X' : Fin n → Fin d → EReal} {Wq Wq' : Fin d → Fin d → EReal} {bq bq' : Fin d → EReal}
    {Wk Wk' : Fin d → Fin d → EReal} {bk bk' : Fin d → EReal} {P P' : Fin n → Fin n → BitVec 1}
    (h0 : X = X') (h1 : Wq = Wq') (h2 : bq = bq') (h3 : Wk = Wk') (h4 : bk = bk') (h5 : P = P') :
    value X Wq bq Wk bk P = value X' Wq' bq' Wk' bk' P' := by
  subst h0 h1 h2 h3 h4 h5; rfl

/-- An index of the padded array lies in the block of the point of its sequence. -/
theorem cover (c : Dev nD) (i : S16x1x128.Idx) :
    ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 128 := (i 2).isLt
  obtain ⟨t, ht⟩ : ∃ t : Fin cfg0.N, t.val = (i 0).val := ⟨⟨(i 0).val, by rw [show cfg0.N = 16 from N_0]; exact hi0⟩, rfl⟩
  refine ⟨t, flush0_7 t, ?_⟩
  obtain ⟨-, -, -, -, -, -, -, -, -, -, -, -, -, -, -, i0, i1, i2⟩ := idx_facts t
  show i ∈ ((View.whole main_v14).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 128 ≤ (i 2).val ∧ (i 2).val < win0_7.index t (2 : Fin 3) * 128 + 128; omega

/-- The score of the blocks a point finds is the score of its sequence: the blocks are the sequence's tokens, the transposed
    weights, the biases and the widened segment bits, and two widened bits multiply to one exactly when both are set. -/
theorem score_of_blocks (x0 : (⟨3, ![1, 512, 1024]⟩ : Shape).Idx → EReal) (x1 : (⟨2, ![1024, 1024]⟩ : Shape).Idx → EReal)
    (x2 : (⟨1, ![1024]⟩ : Shape).Idx → EReal) (x3 : (⟨2, ![1024, 1024]⟩ : Shape).Idx → EReal) (x4 : (⟨1, ![1024]⟩ : Shape).Idx → EReal)
    (x5 : (⟨3, ![1, 512, 1]⟩ : Shape).Idx → BitVec 32) (x6 : (⟨3, ![1, 1, 512]⟩ : Shape).Idx → BitVec 32)
    (A0 : (⟨3, ![16, 512, 1024]⟩ : Shape).Idx → EReal) (A1 : (⟨2, ![1024, 1024]⟩ : Shape).Idx → EReal)
    (A2 : (⟨1, ![1024]⟩ : Shape).Idx → EReal) (A3 : (⟨2, ![1024, 1024]⟩ : Shape).Idx → EReal) (A4 : (⟨1, ![1024]⟩ : Shape).Idx → EReal)
    (A5 A6 : (⟨2, ![16, 512]⟩ : Shape).Idx → BitVec 32) (b : Fin 16)
    (h0 : ∀ s cc, x0 (ix3 (0 : Fin 1) s cc) = A0 (ix3 b s cc)) (h1 : ∀ cc e, x1 (ix2 cc e) = A1 (ix2 e cc))
    (h2 : ∀ e, x2 (ix1 e) = A2 (ix1 e)) (h3 : ∀ cc e, x3 (ix2 cc e) = A3 (ix2 e cc)) (h4 : ∀ e, x4 (ix1 e) = A4 (ix1 e))
    (h5 : ∀ s, x5 (ix3 (0 : Fin 1) s (0 : Fin 1)) = (inFirst (A5 (ix2 b s)) (A6 (ix2 b s))).setWidth 32)
    (h6 : ∀ s, x6 (ix3 (0 : Fin 1) (0 : Fin 1) s) = (inSecond (A5 (ix2 b s)) (A6 (ix2 b s))).setWidth 32) :
    value (n := 512) (d := 1024) (fun s c => x0 (ix3 (0 : Fin 1) s c)) (fun e c => x1 (ix2 c e)) (fun e => x2 (ix1 e))
        (fun e c => x3 (ix2 c e)) (fun e => x4 (ix1 e))
        (fun s t => IntOp.cmpi .eq (IntOp.muli (x5 (ix3 (0 : Fin 1) s (0 : Fin 1))) (x6 (ix3 (0 : Fin 1) (0 : Fin 1) t))) 1#32)
      = batchValue A0 A1 A2 A3 A4 A5 A6 b := by
  unfold batchValue
  refine value_congr (funext fun s => funext fun cc => h0 s cc) (funext fun e => funext fun cc => h1 cc e) (funext fun e => h2 e)
    (funext fun e => funext fun cc => h3 cc e) (funext fun e => h4 e) (funext fun s => funext fun s' => ?_)
  rw [h5 s, h6 s']
  exact product_is_and _ _

attribute [local irreducible] Cert.PairScore.value Cert.PairScore.batchValue

/-- What grid point `t` writes back is block `t` of `padded`. -/
theorem flushed_eq (c : Dev nD) (t : Fin cfg0.N) :
    (dats m 0 c).flushed 7 t = ((cfg0.win 7).blk t).view.read (Elt Ideal) (padded m c) := by
  show (cfg0.win 7).cut (grid0.coords t) ((dats m 0 c).after 7 t) = _
  rw [after0_7]
  unfold out0_7
  rw [View.canon_unit_zero hz3]
  simp only [View.ld_unit_zero (S := S1x512x1024) hz3, View.ld_unit_zero (S := S1x512x1) hz3, View.ld_unit_zero (S := S1x1x512) hz3,
    View.ld_unit_zero (S := S1024x1024) hz2, View.ld_unit_zero (S := S1024) hz1]
  funext j
  have h0 : (j 0).val < 1 := (j 0).isLt
  have h1 : (j 1).val < 1 := (j 1).isLt
  have h2 : (j 2).val < 128 := (j 2).isLt
  have hj : j = ix3 (0 : Fin 1) (0 : Fin 1) (⟨(j 2).val, h2⟩ : Fin 128) := funext fun a => Fin.ext (by
    match a with
    | ⟨0, _⟩ => show (j 0).val = 0; omega
    | ⟨1, _⟩ => show (j 1).val = 0; omega
    | ⟨2, _⟩ => rfl)
  obtain ⟨-, -, -, -, -, -, -, -, -, -, -, -, -, -, -, i0, i1, i2⟩ := idx_facts t
  have hcut : ∀ X : Vec Ideal S1x1x128 .f32, (cfg0.win 7).cut (grid0.coords t) X = X := fun X => rfl
  refine (congrFun (hcut _) j).trans ?_
  rw [View.read_apply]
  refine (congrArg _ hj).trans ?_
  refine (Cert.KernelIdeal.BlockValue.block_value (iblk m c 0 t) (iblk m c 1 t) (iblk m c 2 t) (iblk m c 3 t) (iblk m c 4 t) (iblk m c 5 t) (iblk m c 6 t) ⟨(j 2).val, h2⟩).trans ?_
  refine (score_of_blocks (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (seqOf t) (tokens_apply m c t) (weightQ_apply m c t) (biasQ_apply m c t)
    (weightK_apply m c t) (biasK_apply m c t) (firstBits_apply m c t) (secondBits_apply m c t)).trans ?_
  refine (padded_apply m c _ (seqOf t) ?_).symm
  show win0_7.index t (0 : Fin 3) * 1 + 1 * (j 0).val = t.val
  omega

/-- The padded array after the launch. -/
theorem final (c : Dev nD) : (dats m 0 c).arrAt 7 cfg0.N = padded m c :=
  (dats m 0 c).arrAt_eq_of_cover 7 (padded m c) (fun t _ => flushed_eq m c t) (cover c)

/-- The result vector after the program's last two lines. -/
theorem tail_value (c : Dev nD) :
    Pipeline.afterTail₀ cfgs (dats m) 0 (V0 m) [hostOps1] c main_v16
      = batchScores (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v16) = _
  after_results
  funext i
  have hw : Pipeline.withArrays (cfgs 0).spec c (V0 m c) (fun w => (dats m 0 c).arrAt w (cfgs 0).N) (Proc.devRef .tc main_v14) = padded m c :=
    (Pipeline.withArrays_arr spec0 launch0.win.arr_inj c _ _ 7).trans (final m c)
  show shapeCast S16 (extractStridedSlice S16x1x1 ![0, 0, 0]
      (Pipeline.withArrays (cfgs 0).spec c (V0 m c) (fun w => (dats m 0 c).arrAt w (cfgs 0).N) (Proc.devRef .tc main_v14))
      slices_S16x1x128_S16x1x1_0_0_0) shapeCasts_S16x1x1_S16 i = _
  rw [hw]
  have hi : (i 0).val < 16 := (i 0).isLt
  refine (shapeCast_apply _ shapeCasts_S16x1x1_S16 i (ix3 (⟨(i 0).val, hi⟩ : Fin 16) (0 : Fin 1) (0 : Fin 1)) ?_).trans ?_
  · rw [Shape.rowMajor_val_three, Shape.rowMajor_val_one]
    show ((i 0).val * 1 + 0) * 1 + 0 = (i 0).val
    omega
  refine (extractStridedSlice_apply _ _ slices_S16x1x128_S16x1x1_0_0_0 _ (ix3 (⟨(i 0).val, hi⟩ : Fin 16) (0 : Fin 1) (0 : Fin 128)) fun a => ?_).trans ?_
  · match a with
    | ⟨0, _⟩ => show (i 0).val = 0 + (i 0).val; omega
    | ⟨1, _⟩ => rfl
    | ⟨2, _⟩ => rfl
  exact padded_apply m c _ (i 0) rfl

/-- The run, read: the result vector holds the sixteen scores, and the argument arrays are unchanged. -/
theorem run : θ_run defs (onTc (τ := τ) (main (F := Ideal))) ⟨m, fun _ => 0, ρ⟩ (fun r => ∀ c : Dev nD,
      r.2.mem ((c.tc : Thread nD τ).loc main_v16)
        = batchScores (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v16 (Pipeline.mem_restRefs_of main_v16 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ArrValue

end
-- ==== Proof.LibInnerPairs.lean ====
/-
  Host reductions of a table of pairs, read at a batch entry.

  An array `[a, b, c]` summed by the host across its two inner axes gives a vector `[a]` whose entry `i` is the
  initial value plus the sum, over the pairs `(s, t)` of inner coordinates, of the array at `(i, s, t)`. A matrix
  `[a, N]` reduced by the host along its second axis with the maximum, from minus infinity, gives at `i` the
  greatest entry of row `i`. Every index is written by its coordinates.
-/
import Idealize.ShloMosaic.PureOps.Ideal.Laws
import Idealize.ShloMosaic.Lib.ValueIdx
import proofs.«171518_j24309514895978_2_alg».proof.Proof.LibFlatPairs
import proofs.«171518_j24309514895978_2_alg».proof.Proof.LibRowForms

noncomputable section

namespace Cert.InnerPairs

open Idealize.ShloMosaic Idealize.ShloMosaic.ValueIdx

/-- The single-precision word of minus infinity denotes the least extended real. -/
theorem ofBits_neg_inf : Ideal.ofBits .f32 0xFF800000#32 = ⊥ := by simp [Ideal.ofBits, Ideal.ieee]

/-- Dropping the two inner coordinates of `(i, s, t)` leaves `i`. -/
theorem drop_inner {a b c : ℕ} (h : (⟨3, ![a, b, c]⟩ : Shape).ReducesTo [1, 2] ⟨1, ![a]⟩)
    (i : Fin a) (s : Fin b) (t : Fin c) : h.drop (ix3 i s t) = ix1 i := by
  funext d; apply Fin.ext
  match d with
  | ⟨0, _⟩ => rfl

/-- An index whose two inner coordinates are dropped to `i` has first coordinate `i`. -/
theorem eq_of_drop_inner {a b c : ℕ} (h : (⟨3, ![a, b, c]⟩ : Shape).ReducesTo [1, 2] ⟨1, ![a]⟩)
    (i : Fin a) (j : (⟨3, ![a, b, c]⟩ : Shape).Idx) (hj : h.drop j = ix1 i) :
    ix3 i (j 1 : Fin b) (j 2 : Fin c) = j := by
  have h0 : (j 0 : Fin a) = i := by
    have := congrFun hj ⟨0, Nat.one_pos⟩
    exact Fin.ext (congrArg Fin.val this)
  funext d
  match d with
  | ⟨0, _⟩ => exact h0.symm
  | ⟨1, _⟩ => rfl
  | ⟨2, _⟩ => rfl

/-- The host's float sum of `[a, b, c]` across the two inner axes, at `i`: the initial value plus the sum over the
    pairs `(s, t)` of the array at `(i, s, t)`. -/
theorem hostSum_inner_pairs {a b c : ℕ} (h : (⟨3, ![a, b, c]⟩ : Shape).ReducesTo [1, 2] ⟨1, ![a]⟩)
    (x : (⟨3, ![a, b, c]⟩ : Shape).Idx → EReal) (init : EReal) (i : Fin a) :
    Ideal.hostReduceAdd h x init (ix1 i) = init + ∑ p : Fin b × Fin c, x (ix3 i p.1 p.2) := by
  unfold Ideal.hostReduceAdd
  refine congrArg (init + ·) ?_
  refine Finset.sum_nbij' (fun j => ((j 1 : Fin b), (j 2 : Fin c))) (fun p => ix3 i p.1 p.2) ?_ ?_ ?_ ?_ ?_
  · intro j _; exact Finset.mem_univ _
  · intro p _; exact Finset.mem_filter.2 ⟨Finset.mem_univ _, drop_inner h i p.1 p.2⟩
  · intro j hj; exact eq_of_drop_inner h i j (Finset.mem_filter.1 hj).2
  · intro p _; rfl
  · intro j hj; exact congrArg x (eq_of_drop_inner h i j (Finset.mem_filter.1 hj).2).symm

/-- The host's maximum of `[a, N]` along its second axis, from an initial value that is minus infinity, at `i`: the
    greatest entry of row `i`. -/
theorem hostMax_row {a N : ℕ} (x : (⟨2, ![a, N]⟩ : Shape).Idx → EReal) (init : (⟨0, ![]⟩ : Shape).Idx → EReal)
    (h' : (⟨2, ![a, N]⟩ : Shape).ReducesTo [1] ⟨1, ![a]⟩) (hu : 0 < (⟨0, ![]⟩ : Shape).numel)
    (hinit : init (Shape.Idx.first hu) = ⊥) (i : Fin a) :
    Host.reduce (FloatOps.maximumf (F := Ideal) (φ := .f32)) x init h' hu (ix1 i)
      = (Finset.univ : Finset (Fin N)).sup fun k => x (ix2 i k) := by
  have h : (⟨2, ![a, N]⟩ : Shape).Reduces [1] ⟨1, ![a]⟩ := ⟨h'.1, Nat.one_pos, h'.2⟩
  rw [Host.reduce_eq_fold_single (FloatOps.maximumf (F := Ideal) (φ := .f32)) x init h' h hu (ix1 i), hinit]
  refine Eq.trans ?_ (Cert.FlatPairs.fold_max_bot (Finset.univ : Finset (Fin N)) fun k => x (ix2 i k))
  exact congrArg (fun f => Finset.fold max (⊥ : EReal) f (Finset.univ : Finset (Fin N)))
    (funext fun k => congrArg x (Cert.RowForms.lift_row h i k))

end Cert.InnerPairs

end
-- ==== Proof.RefIsScore.lean ====
/-
  The reference program computes the masked pair score.

  For one batch entry `b` the reference's operations are read one quantity at a time, every index written by its
  coordinates: the tokens' floored lengths and unit directions, the absolute cosines, the two linear maps and their
  logits, the pair bit and the masked logits; then, over the table of pairs flattened to one list, the greatest masked
  logit, each pair's mass and the total mass; then each pair's term and their sum over the pairs. The flattened list
  is regrouped into pairs by the row-major bijection.
-/
import proofs.«171518_j24309514895978_2_alg».proof.Proof.Gen.ReferenceIdeal.Read
import proofs.«171518_j24309514895978_2_alg».proof.Proof.PairScore
import proofs.«171518_j24309514895978_2_alg».proof.Proof.LibFlatPairs
import proofs.«171518_j24309514895978_2_alg».proof.Proof.LibInnerPairs
noncomputable section
namespace Cert.ReferenceIdeal.RefValue
open Cert.ReferenceIdeal Cert.ReferenceIdeal.Gen Idealize.ShloMosaic Idealize.ShloMosaic.ValueIdx Cert.PairScore

/-! ## The composed index maps at coordinates -/

section Indices
variable (b : Fin 16) (s t : Fin 512)

theorem idx14_at (k : Fin 1024) : Read.idx_main_v14 (ix2 b s) k = ix3 b s k :=
  funext fun a => Fin.ext (by match a with | ⟨0, _⟩ => rfl | ⟨1, _⟩ => rfl | ⟨2, _⟩ => rfl)
theorem idx15_at (z : Fin 1) : Read.idx_main_v15 (ix3 b s z) = ix2 b s :=
  funext fun a => Fin.ext (by match a with | ⟨0, _⟩ => rfl | ⟨1, _⟩ => rfl)
theorem idx19_at (c : Fin 1024) : Read.idx_main_v19 (ix3 b s c) = ix3 b s (⟨0, Nat.one_pos⟩ : Fin 1) :=
  funext fun a => Fin.ext (by match a with | ⟨0, _⟩ => rfl | ⟨1, _⟩ => rfl | ⟨2, _⟩ => rfl)
theorem lidx21_at (k : Fin 1024) : Read.lidx_main_v21 (ix3 b s t) k = ix3 b s k :=
  funext fun a => Fin.ext (by match a with | ⟨0, _⟩ => rfl | ⟨1, _⟩ => rfl | ⟨2, _⟩ => rfl)
theorem ridx21_at (k : Fin 1024) : Read.ridx_main_v21 (ix3 b s t) k = ix3 b t k :=
  funext fun a => Fin.ext (by match a with | ⟨0, _⟩ => rfl | ⟨1, _⟩ => rfl | ⟨2, _⟩ => rfl)
theorem lidx23_at (e k : Fin 1024) : Read.lidx_main_v23 (ix3 b s e) k = ix3 b s k :=
  funext fun a => Fin.ext (by match a with | ⟨0, _⟩ => rfl | ⟨1, _⟩ => rfl | ⟨2, _⟩ => rfl)
theorem ridx23_at (e k : Fin 1024) : Read.ridx_main_v23 (ix3 b s e) k = ix2 e k :=
  funext fun a => Fin.ext (by match a with | ⟨0, _⟩ => rfl | ⟨1, _⟩ => rfl)
theorem idx25_at (e : Fin 1024) : Read.idx_main_v24 (Read.idx_main_v25 (ix3 b s e)) = ix1 e :=
  funext fun a => Fin.ext (by match a with | ⟨0, _⟩ => rfl)
theorem lidx27_at (e k : Fin 1024) : Read.lidx_main_v27 (ix3 b s e) k = ix3 b s k :=
  funext fun a => Fin.ext (by match a with | ⟨0, _⟩ => rfl | ⟨1, _⟩ => rfl | ⟨2, _⟩ => rfl)
theorem ridx27_at (e k : Fin 1024) : Read.ridx_main_v27 (ix3 b s e) k = ix2 e k :=
  funext fun a => Fin.ext (by match a with | ⟨0, _⟩ => rfl | ⟨1, _⟩ => rfl)
theorem idx29_at (e : Fin 1024) : Read.idx_main_v28 (Read.idx_main_v29 (ix3 b s e)) = ix1 e :=
  funext fun a => Fin.ext (by match a with | ⟨0, _⟩ => rfl)
theorem lidx31_at (k : Fin 1024) : Read.lidx_main_v31 (ix3 b s t) k = ix3 b s k :=
  funext fun a => Fin.ext (by match a with | ⟨0, _⟩ => rfl | ⟨1, _⟩ => rfl | ⟨2, _⟩ => rfl)
theorem ridx31_at (k : Fin 1024) : Read.ridx_main_v31 (ix3 b s t) k = ix3 b t k :=
  funext fun a => Fin.ext (by match a with | ⟨0, _⟩ => rfl | ⟨1, _⟩ => rfl | ⟨2, _⟩ => rfl)
theorem idx10_at : Read.idx_main_v8 (Read.idx_main_v10 (ix3 b s t)) = ix2 b s :=
  funext fun a => Fin.ext (by match a with | ⟨0, _⟩ => rfl | ⟨1, _⟩ => rfl)
theorem idx11_at : Read.idx_main_v9 (Read.idx_main_v11 (ix3 b s t)) = ix2 b t :=
  funext fun a => Fin.ext (by match a with | ⟨0, _⟩ => rfl | ⟨1, _⟩ => rfl)
theorem idx38_at (k : Fin 262144) : Read.idx_main_v37 (Read.idx_main_v38 (ix2 b k)) = ix1 b :=
  funext fun a => Fin.ext (by match a with | ⟨0, _⟩ => rfl)
theorem idx43_at (k : Fin 262144) : Read.idx_main_v42 (Read.idx_main_v43 (ix2 b k)) = ix1 b :=
  funext fun a => Fin.ext (by match a with | ⟨0, _⟩ => rfl)
theorem idx41_at (k : Fin 262144) : Read.idx_main_v41 (ix1 b) k = ix2 b k :=
  funext fun a => Fin.ext (by match a with | ⟨0, _⟩ => rfl | ⟨1, _⟩ => rfl)

/-- The flattened table has `512 · 512` entries. -/
theorem flat_size : 262144 = 512 * 512 := by norm_num

/-- Entry `k` of batch entry `b`'s flattened table is the pair (row of `k`, column of `k`). -/
theorem idx33_at (k : Fin 262144) :
    Read.idx_main_v33 (ix2 b k) = ix3 b (FlatPairs.rowOf flat_size k) (FlatPairs.colOf flat_size k) :=
  funext fun a => Fin.ext (by
    have hb := b.isLt; have hk := k.isLt
    match a with
    | ⟨0, _⟩ => show (b.val * 262144 + k.val) / 262144 = b.val; omega
    | ⟨1, _⟩ => show (b.val * 262144 + k.val) / 512 % 512 = k.val / 512; omega
    | ⟨2, _⟩ => show (b.val * 262144 + k.val) % 512 = k.val % 512; omega)

/-- The pair `(s, t)` of batch entry `b` sits at position `s · 512 + t` of the flattened table. -/
theorem idx45_at : Read.idx_main_v45 (ix3 b s t) = ix2 b (FlatPairs.posOf flat_size (s, t)) :=
  funext fun a => Fin.ext (by
    have hb := b.isLt; have hs := s.isLt; have ht := t.isLt
    match a with
    | ⟨0, _⟩ => show ((b.val * 512 + s.val) * 512 + t.val) / 262144 = b.val; omega
    | ⟨1, _⟩ => show ((b.val * 512 + s.val) * 512 + t.val) % 262144 = s.val * 512 + t.val; omega)

theorem row_pos : FlatPairs.rowOf flat_size (FlatPairs.posOf flat_size (s, t)) = s :=
  congrArg Prod.fst ((FlatPairs.pairEquiv flat_size).apply_symm_apply (s, t))
theorem col_pos : FlatPairs.colOf flat_size (FlatPairs.posOf flat_size (s, t)) = t :=
  congrArg Prod.snd ((FlatPairs.pairEquiv flat_size).apply_symm_apply (s, t))

end Indices

/-! ## The reference's quantities at coordinates -/

section Values
variable (x0 : (⟨S16x512x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 x6 : (⟨S16x512, .i32⟩ : BufTy).Contents (Elt Ideal)) (b : Fin 16)

local notation "X" => (fun (s : Fin 512) (c : Fin 1024) => x0 (ix3 b s c))
local notation "Wq" => (fun (e c : Fin 1024) => x1 (ix2 e c))
local notation "bq" => (fun (e : Fin 1024) => x2 (ix1 e))
local notation "Wk" => (fun (e c : Fin 1024) => x3 (ix2 e c))
local notation "bk" => (fun (e : Fin 1024) => x4 (ix1 e))
local notation "P" => (fun (s t : Fin 512) =>
  IntOp.andi (inFirst (x5 (ix2 b s)) (x6 (ix2 b s))) (inSecond (x5 (ix2 b t)) (x6 (ix2 b t))))

/-- The squared length of token `s`. -/
theorem sumsq_at (s : Fin 512) :
    Read.val_main_v14 (F := Ideal) x0 (ix2 b s) = ∑ c : Fin 1024, x0 (ix3 b s c) * x0 (ix3 b s c) := by
  rw [Read.val_main_v14_apply, Read.val_main_cst_apply, Ideal.ofBits_def, Ideal.ofBits_zero_f32, zero_add]
  exact Finset.sum_congr rfl fun k _ => by rw [idx14_at]; rfl

/-- The floored length of token `s`. -/
theorem len_at (s : Fin 512) (z : Fin 1) : Read.val_main_v18 (F := Ideal) x0 (ix3 b s z) = len X s := by
  rw [Read.val_main_v18_apply, Read.val_main_v16_apply, Read.val_main_v15_apply, Read.val_main_v17_apply,
    Read.val_main_cst_2_apply, idx15_at, sumsq_at]
  rfl

/-- Token `s` scaled to unit length. -/
theorem dir_at (s : Fin 512) (c : Fin 1024) : Read.val_main_v20 (F := Ideal) x0 (ix3 b s c) = dir X s c := by
  rw [Read.val_main_v20_apply, Read.val_main_v19_apply, idx19_at, len_at]
  rfl

/-- The absolute cosine of tokens `s` and `t`. -/
theorem cosAbs_at (s t : Fin 512) : Read.val_main_v22 (F := Ideal) x0 (ix3 b s t) = cosAbs X s t := by
  have e : Read.val_main_v21 (F := Ideal) x0 (ix3 b s t) = ∑ c : Fin 1024, dir X s c * dir X t c := by
    rw [Read.val_main_v21_apply]
    exact Finset.sum_congr rfl fun k _ => by rw [lidx21_at, ridx21_at, dir_at, dir_at]
  rw [Read.val_main_v22_apply, e]
  rfl

/-- A linear map of token `s`: the query side. -/
theorem linq_at (s : Fin 512) (e : Fin 1024) :
    Read.val_main_v26 (F := Ideal) x0 x1 x2 (ix3 b s e) = lin X Wq bq s e := by
  have e1 : Read.val_main_v23 (F := Ideal) x0 x1 (ix3 b s e) = ∑ c : Fin 1024, x0 (ix3 b s c) * x1 (ix2 e c) := by
    rw [Read.val_main_v23_apply]
    exact Finset.sum_congr rfl fun k _ => by rw [lidx23_at, ridx23_at]
  rw [Read.val_main_v26_apply, Read.val_main_v25_apply, Read.val_main_v24_apply, idx25_at, e1]
  rfl

/-- A linear map of token `s`: the key side. -/
theorem link_at (s : Fin 512) (e : Fin 1024) :
    Read.val_main_v30 (F := Ideal) x0 x3 x4 (ix3 b s e) = lin X Wk bk s e := by
  have e1 : Read.val_main_v27 (F := Ideal) x0 x3 (ix3 b s e) = ∑ c : Fin 1024, x0 (ix3 b s c) * x3 (ix2 e c) := by
    rw [Read.val_main_v27_apply]
    exact Finset.sum_congr rfl fun k _ => by rw [lidx27_at, ridx27_at]
  rw [Read.val_main_v30_apply, Read.val_main_v29_apply, Read.val_main_v28_apply, idx29_at, e1]
  rfl

/-- The logit of the pair `(s, t)`. -/
theorem logit_at (s t : Fin 512) :
    Read.val_main_v31 (F := Ideal) x0 x1 x2 x3 x4 (ix3 b s t) = logit X Wq bq Wk bk s t := by
  rw [Read.val_main_v31_apply]
  exact Finset.sum_congr rfl fun k _ => by rw [lidx31_at, ridx31_at, linq_at, link_at]

/-- The pair bit: `s` in the first segment and `t` in the second. -/
theorem bit_at (s t : Fin 512) : Read.val_main_v12 (F := Ideal) x5 x6 (ix3 b s t) = P s t := by
  rw [Read.val_main_v12_apply, Read.val_main_v10_apply, Read.val_main_v8_apply, Read.val_main_v11_apply,
    Read.val_main_v9_apply, idx10_at, idx11_at, Read.val_main_v4_apply, Read.val_main_v7_apply,
    Read.val_main_v1_apply, Read.val_main_v1_apply, Read.val_main_v3_apply, Read.val_main_v6_apply,
    Read.val_main_v0_apply, Read.val_main_v0_apply, Read.val_main_v2_apply, Read.val_main_v5_apply,
    Read.val_main_c_apply, Read.val_main_c_0_apply, Read.val_main_c_1_apply]
  rfl

/-- The masked logit of the pair `(s, t)`. -/
theorem masked_at (s t : Fin 512) :
    Read.val_main_v32 (F := Ideal) x0 x1 x2 x3 x4 x5 x6 (ix3 b s t) = masked X Wq bq Wk bk P s t := by
  rw [Read.val_main_v32_apply, Read.val_main_call0_v1_apply, Read.val_main_call0_v0_apply, Read.val_main_cst_3_apply,
    bit_at, logit_at]
  rfl

/-- Entry `k` of the flattened table of masked logits. -/
theorem flat_masked_at (k : Fin 262144) :
    Read.val_main_v33 (F := Ideal) x0 x1 x2 x3 x4 x5 x6 (ix2 b k)
      = masked X Wq bq Wk bk P (FlatPairs.rowOf flat_size k) (FlatPairs.colOf flat_size k) := by
  rw [Read.val_main_v33_apply, idx33_at, masked_at]

/-- The greatest masked logit over all pairs. -/
theorem peak_at : Read.val_main_v36 (F := Ideal) x0 x1 x2 x3 x4 x5 x6 (ix1 b) = peak X Wq bq Wk bk P := by
  have hinit : Read.val_main_cst_4 (F := Ideal) (Shape.Idx.first h_S_) = ⊥ := by
    rw [Read.val_main_cst_4_apply, Ideal.ofBits_def]; exact InnerPairs.ofBits_neg_inf
  have e34 : Read.val_main_v34 (F := Ideal) x0 x1 x2 x3 x4 x5 x6 (ix1 b) = peak X Wq bq Wk bk P := by
    unfold Read.val_main_v34
    refine (InnerPairs.hostMax_row (Read.val_main_v33 (F := Ideal) x0 x1 x2 x3 x4 x5 x6) (Read.val_main_cst_4 (F := Ideal))
      reducesTo_S16x262144_S16_d1 h_S_ hinit b).trans ?_
    have e : (fun k : Fin 262144 => Read.val_main_v33 (F := Ideal) x0 x1 x2 x3 x4 x5 x6 (ix2 b k))
        = fun k => masked X Wq bq Wk bk P (FlatPairs.rowOf flat_size k) (FlatPairs.colOf flat_size k) :=
      funext fun k => by rw [flat_masked_at]
    rw [e]
    exact FlatPairs.sup_flat flat_size (masked X Wq bq Wk bk P)
  rw [Read.val_main_v36_apply, Read.val_main_v35_apply, Read.val_main_cst_5_apply, e34, Ideal.ofBits_def,
    InnerPairs.ofBits_neg_inf, Ideal.maximumf_def]
  exact max_eq_right bot_le

/-- The mass of entry `k` of the flattened table. -/
theorem flat_mass_at (k : Fin 262144) :
    Read.val_main_v40 (F := Ideal) x0 x1 x2 x3 x4 x5 x6 (ix2 b k)
      = mass X Wq bq Wk bk P (FlatPairs.rowOf flat_size k) (FlatPairs.colOf flat_size k) := by
  rw [Read.val_main_v40_apply, Read.val_main_v39_apply, Read.val_main_v38_apply, Read.val_main_v37_apply, idx38_at,
    peak_at, flat_masked_at]
  rfl

/-- The total mass of all pairs. -/
theorem massSum_at : Read.val_main_v41 (F := Ideal) x0 x1 x2 x3 x4 x5 x6 (ix1 b) = massSum X Wq bq Wk bk P := by
  have e : ∀ k : Fin 262144, Read.val_main_v40 (F := Ideal) x0 x1 x2 x3 x4 x5 x6 (Read.idx_main_v41 (ix1 b) k)
      = mass X Wq bq Wk bk P (FlatPairs.rowOf flat_size k) (FlatPairs.colOf flat_size k) :=
    fun k => by rw [idx41_at, flat_mass_at]
  rw [Read.val_main_v41_apply, Read.val_main_cst_6_apply, Ideal.ofBits_def, Ideal.ofBits_zero_f32, zero_add,
    Finset.sum_congr rfl fun k _ => e k]
  exact FlatPairs.sum_flat flat_size (mass X Wq bq Wk bk P)

/-- The share of the mass of the pair `(s, t)`. -/
theorem share_at (s t : Fin 512) :
    Read.val_main_v45 (F := Ideal) x0 x1 x2 x3 x4 x5 x6 (ix3 b s t)
      = Ideal.div (mass X Wq bq Wk bk P s t) (massSum X Wq bq Wk bk P) := by
  rw [Read.val_main_v45_apply, idx45_at, Read.val_main_v44_apply, Read.val_main_v43_apply, Read.val_main_v42_apply,
    idx43_at, massSum_at, flat_mass_at, row_pos, col_pos]
  rfl

/-- The pair bit as a number. -/
theorem flag_at (s t : Fin 512) : Read.val_main_v46 (F := Ideal) x5 x6 (ix3 b s t) = flag P s t := by
  rw [Read.val_main_v46_apply, bit_at]
  rfl

/-- The contribution of the pair `(s, t)`. -/
theorem term_at (s t : Fin 512) :
    Read.val_main_v48 (F := Ideal) x0 x1 x2 x3 x4 x5 x6 (ix3 b s t) = term X Wq bq Wk bk P s t := by
  rw [Read.val_main_v48_apply, Read.val_main_v47_apply, share_at, flag_at, cosAbs_at]
  rfl

end Values

/-- The reference's result at batch entry `b` is the masked pair score of that entry's tokens. -/
theorem ref_value (x0 : (⟨S16x512x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 x6 : (⟨S16x512, .i32⟩ : BufTy).Contents (Elt Ideal)) (b : Fin 16) :
    Read.val_main_v49 (F := Ideal) x0 x1 x2 x3 x4 x5 x6 (ix1 b)
      = value (n := 512) (d := 1024) (fun s c => x0 (ix3 b s c)) (fun e c => x1 (ix2 e c)) (fun e => x2 (ix1 e))
          (fun e c => x3 (ix2 e c)) (fun e => x4 (ix1 e))
          (fun s t => IntOp.andi (inFirst (x5 (ix2 b s)) (x6 (ix2 b s))) (inSecond (x5 (ix2 b t)) (x6 (ix2 b t)))) := by
  unfold Read.val_main_v49
  simp only [Host.reduceAdd, Ideal.hostReduceAdd_def]
  refine (InnerPairs.hostSum_inner_pairs reducesTo_S16x512x512_S16_d1_2 _ _ b).trans ?_
  rw [Read.val_main_cst_7_apply, Ideal.ofBits_def, Ideal.ofBits_zero_f32, zero_add]
  exact Finset.sum_congr rfl fun p _ => term_at x0 x1 x2 x3 x4 x5 x6 b p.1 p.2

end Cert.ReferenceIdeal.RefValue
end
-- ==== Proof.lean ====
/-
  The certificate of a kernel that scores, for each of 16 token sequences, how alike its two segments are.

  Both programs compute per sequence the masked pair score of Proof/PairScore.lean: the tokens scaled to unit length
  (the length floored), the absolute cosine of every pair of tokens, query and key projections and their logits, a
  softmax over ALL pairs (first-segment token, second-segment token) at once, the pairs that do not count filled with a
  large negative constant before and zeroed after, and the cosine's absolute value averaged by those weights.

  The kernel works one sequence per grid point on transposed weights and widened segment bits that the program
  prepares before the launch, reduces every table by rows and then down the column of row results, and writes the score
  along the lanes of a padded block of which the program keeps lane 0. The reference works on the whole batch and
  flattens the table of pairs into one list for the softmax. At exact arithmetic a sum or a greatest element does not depend
  on the order or grouping in which it is taken, a change of float format is the identity, and a matrix product on the
  matrix unit into a zero accumulator is the product: so both results are the same function of the arguments, entry by entry
  (Proof/KernelValue.lean over Proof/BlockIsScore.lean for the kernel, Proof/RefIsScore.lean for the reference). No law used
  here needs the inputs to be finite.

  Each program terminates without a fault and leaves its arguments unchanged: for the two kernel programs by their frame
  run, for the reference by its run. The idealized kernel is the kernel's own text read at exact arithmetic (no rewrite was
  applied), so there is nothing to preserve.
-/
import proofs.«171518_j24309514895978_2_alg».proof.Defs
import proofs.«171518_j24309514895978_2_alg».proof.Proof.Gen.Kernel
import proofs.«171518_j24309514895978_2_alg».proof.Proof.Gen.Kernel.Skeleton
import proofs.«171518_j24309514895978_2_alg».proof.Proof.Gen.Kernel.Launch
import proofs.«171518_j24309514895978_2_alg».proof.Proof.Gen.Kernel.Points
import proofs.«171518_j24309514895978_2_alg».proof.Proof.Gen.Kernel.Frame
import proofs.«171518_j24309514895978_2_alg».proof.Proof.Gen.KernelIdeal
import proofs.«171518_j24309514895978_2_alg».proof.Proof.Gen.KernelIdeal.Skeleton
import proofs.«171518_j24309514895978_2_alg».proof.Proof.Gen.KernelIdeal.Launch
import proofs.«171518_j24309514895978_2_alg».proof.Proof.Gen.KernelIdeal.Points
import proofs.«171518_j24309514895978_2_alg».proof.Proof.Gen.KernelIdeal.Frame
import proofs.«171518_j24309514895978_2_alg».proof.Proof.Gen.ReferenceIdeal
import proofs.«171518_j24309514895978_2_alg».proof.Proof.Gen.Pre_finite_inputs
import proofs.«171518_j24309514895978_2_alg».proof.Proof.Gen.ReferenceIdeal.Run
import proofs.«171518_j24309514895978_2_alg».proof.Proof.Gen.ReferenceIdeal.Read
import proofs.«171518_j24309514895978_2_alg».proof.Proof.KernelValue
import proofs.«171518_j24309514895978_2_alg».proof.Proof.RefIsScore
import Idealize.ShloMosaic.Adequacy
import Idealize.ShloMosaic.Init

noncomputable section

namespace Cert.Proof

open Idealize.ShloMosaic Idealize.ShloMosaic.TcCoe Idealize.SL.Sem Idealize.ShloMosaic.ValueIdx

attribute [local irreducible] Cert.PairScore.value Cert.PairScore.batchValue

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments the kernel's result vector and the reference's both end at the sixteen
    masked pair scores of the arguments. -/
theorem algebraic : Cert.algebraic_KernelIdeal_ReferenceIdeal := by
  intro m ρ m' ρ' _ hagree
  refine ⟨fun c => Cert.PairScore.batchScores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v49_eq, e0, e1, e2, e3, e4, e5, e6]
  funext i
  obtain ⟨b, rfl⟩ : ∃ b : Fin 16, i = ix1 b := ⟨i 0, eq_ix1 i⟩
  refine (Cert.ReferenceIdeal.RefValue.ref_value _ _ _ _ _ _ _ b).trans ?_
  unfold Cert.PairScore.batchScores Cert.PairScore.batchValue
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
